-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S2048x1024 : Shape := ⟨2, ![2048, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg11 : FVec F S1024 .f32) (main_v48 : IVec S_ 1) (main_v49 : FVec F S2048x1024 .f32) (main_v50 : FVec F S2048x1024 .f32) : IVec S_ 1 :=
  let main_v51 : IVec S2048x1024 1 := cmpf .olt main_v49 main_v50
  let main_c_19 : IVec S_ 1 := constantI S_ 1 1#1
  let main_v52 : IVec S_ 1 := (fun x v => Host.reduce IntOp.andi x v reducesTo_S2048x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  main_v58

def fn_part2 {F : FTy → Type} [FloatOps F] (main_arg7 : FVec F S1024 .f32) (main_arg8 : FVec F S2048x1024 .f32) (main_arg9 : FVec F S1024 .f32) (main_arg10 : FVec F S2048x1024 .f32) (main_arg11 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S2048x1024 .f32 := Host.absf main_arg8
  let main_cst_14 : FVec F S_ .f32 := constant S_ .f32 0x7F800000#32
  let main_v40 : FVec F S2048x1024 .f32 := broadcastInDim S2048x1024 ![] bcast_S_S2048x1024 main_cst_14
  let main_v41 : IVec S2048x1024 1 := cmpf .olt main_v39 main_v40
  let main_c_15 : IVec S_ 1 := constantI S_ 1 1#1
  let main_v42 : IVec S_ 1 := (fun x v => Host.reduce IntOp.andi x v reducesTo_S2048x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S2048x1024 .f32 := Host.absf main_arg10
  let main_cst_18 : FVec F S_ .f32 := constant S_ .f32 0x7F800000#32
  let main_v50 : FVec F S2048x1024 .f32 := broadcastInDim S2048x1024 ![] bcast_S_S2048x1024 main_cst_18
  fn_part3 (F := F) main_arg11 main_v48 main_v49 main_v50

def fn_part1 {F : FTy → Type} [FloatOps F] (main_arg4 : FVec F S2048x1024 .f32) (main_arg5 : FVec F S1024 .f32) (main_arg6 : FVec F S2048x1024 .f32) (main_arg7 : FVec F S1024 .f32) (main_arg8 : FVec F S2048x1024 .f32) (main_arg9 : FVec F S1024 .f32) (main_arg10 : FVec F S2048x1024 .f32) (main_arg11 : FVec F S1024 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S2048x1024 .f32 := Host.absf main_arg6
  let main_cst_10 : FVec F S_ .f32 := constant S_ .f32 0x7F800000#32
  let main_v30 : FVec F S2048x1024 .f32 := broadcastInDim S2048x1024 ![] bcast_S_S2048x1024 main_cst_10
  let main_v31 : IVec S2048x1024 1 := cmpf .olt main_v29 main_v30
  let main_c_11 : IVec S_ 1 := constantI S_ 1 1#1
  let main_v32 : IVec S_ 1 := (fun x v => Host.reduce IntOp.andi x v reducesTo_S2048x1024_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S8192x1024 .f32) (main_arg1 : FVec F S8192x1024 .f32) (main_arg2 : FVec F S8192x1024 .f32) (main_arg3 : FVec F S8192x1024 .f32) (main_arg4 : FVec F S2048x1024 .f32) (main_arg5 : FVec F S1024 .f32) (main_arg6 : FVec F S2048x1024 .f32) (main_arg7 : FVec F S1024 .f32) (main_arg8 : FVec F S2048x1024 .f32) (main_arg9 : FVec F S1024 .f32) (main_arg10 : FVec F S2048x1024 .f32) (main_arg11 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_arg5 main_arg6 main_arg7 main_arg8 main_arg9 main_arg10 main_arg11 main_v13 main_v16
-- ==== Kernel.lean ====
abbrev S8192x1024 : Shape := ⟨2, ![8192, 1024]⟩
abbrev S2048x1024 : Shape := ⟨2, ![2048, 1024]⟩
abbrev S1024 : Shape := ⟨1, ![1024]⟩
abbrev S1x1024 : Shape := ⟨2, ![1, 1024]⟩
abbrev S1024x4096 : Shape := ⟨2, ![1024, 4096]⟩
abbrev S1x4096 : Shape := ⟨2, ![1, 4096]⟩
abbrev S1024x1024 : Shape := ⟨2, ![1024, 1024]⟩
abbrev S256x1024 : Shape := ⟨2, ![256, 1024]⟩
abbrev S256x4096 : Shape := ⟨2, ![256, 4096]⟩

abbrev nBuf : Space → Nat
  | .hbm => 21
  | .vmem => 27
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S2048x1024, .f32⟩
  | .hbm, ⟨5, _⟩ => ⟨S1024, .f32⟩
  | .hbm, ⟨6, _⟩ => ⟨S2048x1024, .f32⟩
  | .hbm, ⟨7, _⟩ => ⟨S1024, .f32⟩
  | .hbm, ⟨8, _⟩ => ⟨S2048x1024, .f32⟩
  | .hbm, ⟨9, _⟩ => ⟨S1024, .f32⟩
  | .hbm, ⟨10, _⟩ => ⟨S2048x1024, .f32⟩
  | .hbm, ⟨11, _⟩ => ⟨S1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1024x4096, .bf16⟩
  | .hbm, ⟨17, _⟩ => ⟨S1024x4096, .bf16⟩
  | .hbm, ⟨18, _⟩ => ⟨S1x4096, .f32⟩
  | .hbm, ⟨19, _⟩ => ⟨S8192x1024, .f32⟩
  | .hbm, ⟨20, _⟩ => ⟨S8192x1024, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S1024x4096, .bf16⟩
  | .local _ .vmem, ⟨21, _⟩ => ⟨S1024x4096, .bf16⟩
  | .local _ .vmem, ⟨22, _⟩ => ⟨S1x4096, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev main_v4_2 : Ref sig .tc := ⟨.hbm, 18, rfl⟩
abbrev main_v5_0 : Ref sig .tc := ⟨.hbm, 19, rfl⟩
abbrev main_v5_1 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg6_1 : Ref sig .tc := ⟨.vmem, 24, rfl⟩
abbrev cc1_stg7_0 : Ref sig .tc := ⟨.vmem, 25, rfl⟩
abbrev cc1_stg7_1 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem8_1 : DmaSem sig := 9
abbrev cc0_sem9_0 : DmaSem sig := 10
abbrev cc0_sem9_1 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem6_1 : DmaSem sig := 24
abbrev cc1_sem7_0 : DmaSem sig := 25
abbrev cc1_sem7_1 : DmaSem sig := 26

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1024x4096 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x4096 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x4096 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  shapeCasts_S1024_S1x1024 : S1024.ShapeCasts S1x1024
  inb_S2048x1024_S1024x1024_0_0 : ∀ a, (![0, 0] : Fin 2 → Nat) a + S1024x1024.size a ≤ S2048x1024.size a
  h_S1024x1024 : 0 < S1024x1024.numel
  bitsLt_bf16_f32 : FTy.bits .bf16 < FTy.bits .f32
  inb_S1024x1024_S1024x1024_0_0 : ∀ a, (![0, 0] : Fin 2 → Nat) a + S1024x1024.size a ≤ S1024x1024.size a
  packedbf16_S1024x1024_S1024x1024_0_0 : (Rect.unit (s := S1024x1024) ![0, 0] S1024x1024.size inb_S1024x1024_S1024x1024_0_0).PackedRows (EltTy.packing .bf16)
  inb_S2048x1024_S1024x1024_1024_0 : ∀ a, (![1024, 0] : Fin 2 → Nat) a + S1024x1024.size a ≤ S2048x1024.size a
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S2048x1024.size a
  hwx0_0 : ∀ i : grid0.Coords, EltTy.bits .f32 = 32 ∨ (Rect.block (s := S2048x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .f32 = 32 ∨ (Rect.block (s := S2048x1024) S2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S2048x1024.size a
  hwx0_2 : ∀ i : grid0.Coords, EltTy.bits .f32 = 32 ∨ (Rect.block (s := S2048x1024) S2048x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S2048x1024.size a
  hwx0_3 : ∀ i : grid0.Coords, EltTy.bits .f32 = 32 ∨ (Rect.block (s := S2048x1024) S2048x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x4096.size a
  hwx0_8 : ∀ i : grid0.Coords, EltTy.bits .bf16 = 32 ∨ (Rect.block (s := S1024x4096) S1024x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x4096.size a
  hwx0_9 : ∀ i : grid0.Coords, EltTy.bits .bf16 = 32 ∨ (Rect.block (s := S1024x4096) S1024x1024.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x4096.size a
  hwx0_10 : ∀ i : grid0.Coords, EltTy.bits .f32 = 32 ∨ (Rect.block (s := S1x4096) S1x1024.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S8192x1024.size a
  hwx1_0 : ∀ i : grid1.Coords, EltTy.bits .f32 = 32 ∨ (Rect.block (s := S8192x1024) S256x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1024.size a ≤ S8192x1024.size a
  hwx1_1 : ∀ i : grid1.Coords, EltTy.bits .f32 = 32 ∨ (Rect.block (s := S8192x1024) S256x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1024.size a ≤ S8192x1024.size a
  hwx1_2 : ∀ i : grid1.Coords, EltTy.bits .f32 = 32 ∨ (Rect.block (s := S8192x1024) S256x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x4096.size a ≤ S1024x4096.size a
  hwx1_3 : ∀ i : grid1.Coords, EltTy.bits .bf16 = 32 ∨ (Rect.block (s := S1024x4096) S1024x4096.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x4096.size a ≤ S1024x4096.size a
  hwx1_4 : ∀ i : grid1.Coords, EltTy.bits .bf16 = 32 ∨ (Rect.block (s := S1024x4096) S1024x4096.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x4096.size a ≤ S1x4096.size a
  hwx1_5 : ∀ i : grid1.Coords, EltTy.bits .f32 = 32 ∨ (Rect.block (s := S1x4096) S1x4096.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x1024.size a ≤ S8192x1024.size a
  hwx1_6 : ∀ i : grid1.Coords, EltTy.bits .f32 = 32 ∨ (Rect.block (s := S8192x1024) S256x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S256x1024.size a ≤ S8192x1024.size a
  hwx1_7 : ∀ i : grid1.Coords, EltTy.bits .f32 = 32 ∨ (Rect.block (s := S8192x1024) S256x1024.size (cc1_transform_7 i) (hinb1_7 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg4) S2048x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg8) S2048x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg10) S2048x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4_0) S1024x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v4_1) S1024x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v4_2) S1x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun i => !(k0_cond1 i == 1#1) && !(k0_cond2 i == 1#1) && !(k0_cond3 i == 1#1) && !(k0_cond4 i == 1#1) | 9 => fun i => !(k0_cond1 i == 1#1) && !(k0_cond2 i == 1#1) && !(k0_cond3 i == 1#1) && !(k0_cond4 i == 1#1) | 10 => fun i => !(k0_cond1 i == 1#1) && !(k0_cond2 i == 1#1) && !(k0_cond3 i == 1#1) && !(k0_cond4 i == 1#1) | ⟨_ + 11, h⟩ => absurd h (Nat.not_lt.2 (Nat.le_add_left _ _))

abbrev win1_0 : Pipeline.Window sig grid1 :=
  Pipeline.Window.ofSpec (Memref.whole main_arg0) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S256x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S256x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4_0) S1024x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4_1) S1024x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4_2) S1x4096.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v5_0) S256x1024.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v5_1) S256x1024.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S8192x1024 : Shape := ⟨2, ![8192, 1024]⟩
abbrev S2048x1024 : Shape := ⟨2, ![2048, 1024]⟩
abbrev S1024 : Shape := ⟨1, ![1024]⟩
abbrev S8192x2048 : Shape := ⟨2, ![8192, 2048]⟩
abbrev S2048x4096 : Shape := ⟨2, ![2048, 4096]⟩
abbrev S4096 : Shape := ⟨1, ![4096]⟩
abbrev S8192x4096 : Shape := ⟨2, ![8192, 4096]⟩
abbrev S1x4096 : Shape := ⟨2, ![1, 4096]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S2048x1024, .f32⟩
  | .hbm, ⟨5, _⟩ => ⟨S1024, .f32⟩
  | .hbm, ⟨6, _⟩ => ⟨S2048x1024, .f32⟩
  | .hbm, ⟨7, _⟩ => ⟨S1024, .f32⟩
  | .hbm, ⟨8, _⟩ => ⟨S2048x1024, .f32⟩
  | .hbm, ⟨9, _⟩ => ⟨S1024, .f32⟩
  | .hbm, ⟨10, _⟩ => ⟨S2048x1024, .f32⟩
  | .hbm, ⟨11, _⟩ => ⟨S1024, .f32⟩
  | .hbm, ⟨12, _⟩ => ⟨S8192x2048, .f32⟩
  | .hbm, ⟨13, _⟩ => ⟨S2048x4096, .f32⟩
  | .hbm, ⟨14, _⟩ => ⟨S4096, .f32⟩
  | .hbm, ⟨15, _⟩ => ⟨S8192x4096, .f32⟩
  | .hbm, ⟨16, _⟩ => ⟨S1x4096, .f32⟩
  | .hbm, ⟨17, _⟩ => ⟨S8192x4096, .f32⟩
  | .hbm, ⟨18, _⟩ => ⟨S8192x4096, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]

class Facts₀ : Prop where
  concatenates_S8192x1024_S8192x1024_S8192x2048_d1 : Shape.Concatenates [S8192x1024, S8192x1024] S8192x2048 1
  concatenates_S2048x1024_S2048x1024_S2048x1024_S2048x1024_S2048x4096_d1 : Shape.Concatenates [S2048x1024, S2048x1024, S2048x1024, S2048x1024] S2048x4096 1
  concatenates_S1024_S1024_S1024_S1024_S4096_d0 : Shape.Concatenates [S1024, S1024, S1024, S1024] S4096 0
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  dot_S8192x2048_S2048x4096_S8192x4096_1_0_0_1_n_n_wf : DotDims.WF S8192x2048 S2048x4096 S8192x4096 [1] [0] [0] [1] [] []

variable [Facts₀]

def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf

class Facts : Prop extends Facts₀ where

variable [Facts]
-- ==== Proof.WholeRun.lean ====
/-
  The whole run of the idealized kernel program, with EVERY buffer read at the end.

  The program is a stretch of host operations (four reshapes of the bias vectors) and two kernel regions.  Its run
  from the launch memory is the generated chain of segments; the contents of the TensorCore's buffers at each
  boundary are the generated fold `W0 → W1 → W2 → W3`.  The generated frame theorem reads only the argument
  arrays out of the last boundary; here the same run is read at every unscoped buffer, so that the two result
  arrays can be read too.
-/
import proofs.«112480_j55044300866146_2_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and in every final state each unscoped
    buffer of each TensorCore holds the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

end Cert.KernelIdeal.WholeRun

end
-- ==== Proof.LibPlainDot.lean ====
/-
  A plain matrix product read at an index.

  For dimension numbers `D` of a product of an `M × K` operand with a `K × N` operand into `M × N` that contract
  ONE axis — the left operand's second against the right operand's first, no batch axis — the sum over `D`'s
  contraction index that the ideal instance gives for a `tpu.matmul` into a zero accumulator and for a host
  `dot_general` alike is the textbook one: entry `(r, c)` is the sum over `k : Fin K` of the left operand at `(r, k)`
  times the right operand at `(k, c)`.  What makes a given `D` plain is stated as four facts about the coordinates
  of its operand indices, which a concrete record proves by unfolding its lists of axes.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

/-- The contraction sum of a plain product, re-indexed by the contracted axis' coordinate: at the output index `j`
    the left operand is read along row `j 0` and the right operand along column `j 1`. -/
theorem sum_plain {M K N : Nat}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  exact congrArg₂ (fun a b : EReal => a * b) (congrArg l el) (congrArg r er)

/-- A `tpu.matmul` with plain dimension numbers into the zero accumulator, at the ideal instance, is that sum. -/
theorem matmul_zero_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂)
    (j : (⟨2, ![M, N]⟩ : Shape).Idx) :
    FloatOps.matmul D prec l r (constant (⟨2, ![M, N]⟩ : Shape) .f32 0x00000000#32) j
      = ∑ k : Fin K, l (ix2 (j 0) k) * r (ix2 k (j 1)) := by
  rw [Ideal.matmul_constant_zero_apply]
  exact sum_plain D hr hs l0 l1 r0 r1 l r j

/-- A host `dot_general` with plain dimension numbers, at the ideal instance, is the same sum, whatever its
    precision and schedule keys. -/
theorem dotGeneral_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision) (sched : HostSchedule)
    (l : FVec Ideal (⟨2, ![M, K]⟩ : Shape) φ₁) (r : FVec Ideal (⟨2, ![K, N]⟩ : Shape) φ₂)
    (j : (⟨2, ![M, N]⟩ : Shape).Idx) :
    FloatOps.dotGeneral D prec sched l r j = ∑ k : Fin K, l (ix2 (j 0) k) * r (ix2 k (j 1)) := by
  rw [Ideal.dotGeneral_apply]
  exact sum_plain D hr hs l0 l1 r0 r1 l r j

end Cert.Lib.PlainDot

end
-- ==== Proof.CellPayload.lean ====
/-
  The second kernel's arithmetic at an index.

  From its loaded blocks — 256 rows of `x`, `h` and `c`, the gate-major weights `wx`, `wh` (1024 × 4096) and the
  bias row `b` (1 × 4096) — the body computes the 256 × 4096 table of pre-activations
      (∑ₖ x[p,k] · wx[k,col] + ∑ₖ h[p,k] · wh[k,col]) + b[0,col]
  (two matrix products into zero accumulators, added, then the bias row broadcast over the rows; the changes of
  float format are the identity on the extended reals), cuts it into its four column blocks and combines them:
      c'[p,q] = c[p,q] · σ(t[p,q]) + σ(t[p,1024+q]) · tanh(t[p,2048+q]),   h'[p,q] = σ(t[p,3072+q]) · tanh(c'[p,q]).
-/
import proofs.«112480_j55044300866146_2_alg».proof.Proof.Gen.KernelIdeal.Skeleton
import proofs.«112480_j55044300866146_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.CellPayload

open Cert.KernelIdeal Cert.KernelIdeal.Gen Idealize.ShloMosaic Idealize.ShloMosaic.ValueIdx

/-! The dimension numbers of the body's two products are plain: rows × contraction times contraction × columns. -/

theorem dot_l0 (j : S256x4096.Idx) (q : dot_S256x1024_S1024x4096_S256x4096_1_0_0_1_n_n.contr.Idx) : (dot_S256x1024_S1024x4096_S256x4096_1_0_0_1_n_n.lhsIdx j q 0).val = (j 0).val := by
  unfold DotDims.lhsIdx
  rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
  rfl
theorem dot_l1 (j : S256x4096.Idx) (q : dot_S256x1024_S1024x4096_S256x4096_1_0_0_1_n_n.contr.Idx) : (dot_S256x1024_S1024x4096_S256x4096_1_0_0_1_n_n.lhsIdx j q 1).val = (q ⟨0, by decide⟩).val :=
  dot_S256x1024_S1024x4096_S256x4096_1_0_0_1_n_n.lhsIdx_val_of_single rfl j q
theorem dot_r0 (j : S256x4096.Idx) (q : dot_S256x1024_S1024x4096_S256x4096_1_0_0_1_n_n.contr.Idx) : (dot_S256x1024_S1024x4096_S256x4096_1_0_0_1_n_n.rhsIdx j q 0).val = (q ⟨0, by decide⟩).val :=
  dot_S256x1024_S1024x4096_S256x4096_1_0_0_1_n_n.rhsIdx_val_of_single rfl j q
theorem dot_r1 (j : S256x4096.Idx) (q : dot_S256x1024_S1024x4096_S256x4096_1_0_0_1_n_n.contr.Idx) : (dot_S256x1024_S1024x4096_S256x4096_1_0_0_1_n_n.rhsIdx j q 1).val = (j 1).val := by
  unfold DotDims.rhsIdx
  rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
  rfl

/-- One of the body's products, into the zero accumulator, at row `p` and column `col`. -/
theorem product_apply (l : Vec Ideal S256x1024 .f32) (w : Vec Ideal S1024x4096 .bf16) (p : Fin 256) (col : Fin 4096) :
    matmul (F := Ideal) (φ₁ := .bf16) (φ₂ := .bf16) dot_S256x1024_S1024x4096_S256x4096_1_0_0_1_n_n none (truncf .bf16 l bitsLt_bf16_f32) (shapeCast S1024x4096 w shapeCasts_S1024x4096_S1024x4096)
        (constant (F := Ideal) S256x4096 .f32 0x00000000#32) (ix2 p col)
      = ∑ k : Fin 1024, l (ix2 p k) * w (ix2 k col) := by
  refine (Cert.Lib.PlainDot.matmul_zero_apply (M := 256) (K := 1024) (N := 4096) dot_S256x1024_S1024x4096_S256x4096_1_0_0_1_n_n rfl rfl dot_l0 dot_l1 dot_r0 dot_r1 none
    (truncf .bf16 l bitsLt_bf16_f32) (shapeCast S1024x4096 w shapeCasts_S1024x4096_S1024x4096) (ix2 p col)).trans ?_
  refine Finset.sum_congr rfl fun k _ => ?_
  rw [shapeCast_self]
  rfl

/-- The table of pre-activations at row `p`, column `col`. -/
def table (x h : Vec Ideal S256x1024 .f32) (wx wh : Vec Ideal S1024x4096 .bf16) (b : Vec Ideal S1x4096 .f32)
    (p : Fin 256) (col : Fin 4096) : EReal :=
  (∑ k : Fin 1024, x (ix2 p k) * wx (ix2 k col) + ∑ k : Fin 1024, h (ix2 p k) * wh (ix2 k col)) + b (ix2 (0 : Fin 1) col)

theorem table_apply (x h : Vec Ideal S256x1024 .f32) (wx wh : Vec Ideal S1024x4096 .bf16) (b : Vec Ideal S1x4096 .f32)
    (p : Fin 256) (col : Fin 4096) : k1_pay1 x h wx wh b (ix2 p col) = table x h wx wh b p col := by
  unfold k1_pay1 table
  rw [addf_apply, addf_apply, product_apply, product_apply, broadcastTo_1b_ab_apply, shapeCast_self]

/-- The four column blocks of the table, read at `(p, q)`. -/
theorem block_apply (o : Nat) (x h : Vec Ideal S256x1024 .f32) (wx wh : Vec Ideal S1024x4096 .bf16) (b : Vec Ideal S1x4096 .f32)
    (hs : S256x4096.Slices ![0, o] S256x1024) (p : Fin 256) (q : Fin 1024) (col : Fin 4096) (hcol : col.val = o + q.val) :
    extractStridedSlice S256x1024 ![0, o] (k1_pay1 x h wx wh b) hs (ix2 p q) = table x h wx wh b p col :=
  (slice2_axis1_apply o (k1_pay1 x h wx wh b) hs p q col hcol).trans (table_apply x h wx wh b p col)

/-- The new cell state of the block at `(p, q)`. -/
def cellOf (x h c : Vec Ideal S256x1024 .f32) (wx wh : Vec Ideal S1024x4096 .bf16) (b : Vec Ideal S1x4096 .f32)
    (p : Fin 256) (q : Fin 1024) : EReal :=
  c (ix2 p q) * Ideal.logistic (table x h wx wh b p ⟨0 + q.val, by have := q.isLt; omega⟩)
    + Ideal.logistic (table x h wx wh b p ⟨1024 + q.val, by have := q.isLt; omega⟩)
      * Ideal.tanh (table x h wx wh b p ⟨2048 + q.val, by have := q.isLt; omega⟩)

theorem cell_apply (x h c : Vec Ideal S256x1024 .f32) (wx wh : Vec Ideal S1024x4096 .bf16) (b : Vec Ideal S1x4096 .f32)
    (p : Fin 256) (q : Fin 1024) : k1_pay2 x h wx wh b c (ix2 p q) = cellOf x h c wx wh b p q := by
  unfold k1_pay2 cellOf
  rw [addf_apply, mulf_apply, mulf_apply]
  show c (ix2 p q) * Ideal.logistic (extractStridedSlice S256x1024 ![0, 0] (k1_pay1 x h wx wh b) slices_S256x4096_o0_0_S256x1024 (ix2 p q))
    + Ideal.logistic (extractStridedSlice S256x1024 ![0, 1024] (k1_pay1 x h wx wh b) slices_S256x4096_o0_1024_S256x1024 (ix2 p q))
      * Ideal.tanh (extractStridedSlice S256x1024 ![0, 2048] (k1_pay1 x h wx wh b) slices_S256x4096_o0_2048_S256x1024 (ix2 p q)) = _
  rw [block_apply 0 x h wx wh b _ p q ⟨0 + q.val, by have := q.isLt; omega⟩ rfl,
    block_apply 1024 x h wx wh b _ p q ⟨1024 + q.val, by have := q.isLt; omega⟩ rfl,
    block_apply 2048 x h wx wh b _ p q ⟨2048 + q.val, by have := q.isLt; omega⟩ rfl]

/-- The new hidden state of the block at `(p, q)`. -/
def hiddenOf (x h c : Vec Ideal S256x1024 .f32) (wx wh : Vec Ideal S1024x4096 .bf16) (b : Vec Ideal S1x4096 .f32)
    (p : Fin 256) (q : Fin 1024) : EReal :=
  Ideal.logistic (table x h wx wh b p ⟨3072 + q.val, by have := q.isLt; omega⟩) * Ideal.tanh (cellOf x h c wx wh b p q)

theorem hidden_apply (x h c : Vec Ideal S256x1024 .f32) (wx wh : Vec Ideal S1024x4096 .bf16) (b : Vec Ideal S1x4096 .f32)
    (p : Fin 256) (q : Fin 1024) : k1_pay3 x h wx wh b c (ix2 p q) = hiddenOf x h c wx wh b p q := by
  unfold k1_pay3 hiddenOf
  rw [mulf_apply]
  show Ideal.logistic (extractStridedSlice S256x1024 ![0, 3072] (k1_pay1 x h wx wh b) slices_S256x4096_o0_3072_S256x1024 (ix2 p q))
      * Ideal.tanh (k1_pay2 x h wx wh b c (ix2 p q)) = _
  rw [block_apply 3072 x h wx wh b _ p q ⟨3072 + q.val, by have := q.isLt; omega⟩ rfl, cell_apply]

end Cert.KernelIdeal.CellPayload

end
-- ==== Proof.CellSpec.lean ====
/-
  The LSTM cell update as one function of the argument arrays, index by index, over the extended reals.

  For a batch row `r` and a hidden column `q`, a gate with weight matrix `W` (2048 × 1024: the first 1024 rows
  multiply the input `x`, the last 1024 the previous hidden state `h`) and bias `b` has the pre-activation
      pre W b r q = (∑ₖ x[r,k] · W[k,q] + ∑ₖ h[r,k] · W[1024+k,q]) + b[q],
  and the cell is
      c' = c · σ(pre forget) + σ(pre input) · tanh(pre update),     h' = σ(pre out) · tanh c'
  with σ the logistic function `1 / (1 + e⁻ˣ)`.  The same pre-activation written as ONE contraction over the 2048
  rows of `W` against the row `[x[r,·], h[r,·]]` is equal to it: a finite sum over `Fin 2048` splits into its two
  halves in any additive commutative monoid, the extended reals included, so no finiteness is needed.
-/
import Idealize.ShloMosaic.Lib.ValueIdx
import Idealize.ShloMosaic.PureOps.Ideal

noncomputable section

open scoped BigOperators

namespace Cert.LstmCell

open Idealize.ShloMosaic Idealize.ShloMosaic.ValueIdx

/-- Row index `k` of the upper half (the rows that multiply `x`) of a 2048-row weight matrix. -/
abbrev upper (k : Fin 1024) : Fin 2048 := ⟨k.val, by have := k.isLt; omega⟩
/-- Row index `1024 + k` of the lower half (the rows that multiply `h`). -/
abbrev lower (k : Fin 1024) : Fin 2048 := ⟨1024 + k.val, by have := k.isLt; omega⟩

/-- A gate's pre-activation at batch row `r`, hidden column `q`: the two half contractions, then the bias. -/
def pre (x h : (⟨2, ![8192, 1024]⟩ : Shape).Idx → EReal) (W : (⟨2, ![2048, 1024]⟩ : Shape).Idx → EReal)
    (b : (⟨1, ![1024]⟩ : Shape).Idx → EReal) (r : Fin 8192) (q : Fin 1024) : EReal :=
  (∑ k : Fin 1024, x (ix2 r k) * W (ix2 (upper k) q) + ∑ k : Fin 1024, h (ix2 r k) * W (ix2 (lower k) q)) + b (ix1 q)

/-- The row `[x[r,·], h[r,·]]` of the joined input, at a coordinate of the joined axis. -/
def joined (x h : (⟨2, ![8192, 1024]⟩ : Shape).Idx → EReal) (r : Fin 8192) (k : Fin 2048) : EReal :=
  if hk : k.val < 1024 then x (ix2 r ⟨k.val, hk⟩) else h (ix2 r ⟨k.val - 1024, by have := k.isLt; omega⟩)

/-- One contraction over all 2048 rows of `W` is the sum of the two half contractions. -/
theorem sum_joined (x h : (⟨2, ![8192, 1024]⟩ : Shape).Idx → EReal) (W : (⟨2, ![2048, 1024]⟩ : Shape).Idx → EReal)
    (r : Fin 8192) (q : Fin 1024) :
    ∑ k : Fin 2048, joined x h r k * W (ix2 k q)
      = ∑ k : Fin 1024, x (ix2 r k) * W (ix2 (upper k) q) + ∑ k : Fin 1024, h (ix2 r k) * W (ix2 (lower k) q) := by
  have hs := Fin.sum_univ_add (M := EReal) (a := 1024) (b := 1024) (fun k : Fin (1024 + 1024) => joined x h r k * W (ix2 k q))
  refine hs.trans (congrArg₂ (fun a b : EReal => a + b) (Finset.sum_congr rfl fun k _ => ?_) (Finset.sum_congr rfl fun k _ => ?_))
  · have hk : (Fin.castAdd 1024 k : Fin (1024 + 1024)).val < 1024 := k.isLt
    show joined x h r (Fin.castAdd 1024 k) * _ = _
    unfold joined
    rw [dif_pos hk]
    rfl
  · have hk : ¬ (Fin.natAdd 1024 k : Fin (1024 + 1024)).val < 1024 := by
      show ¬ (1024 + k.val < 1024); omega
    show joined x h r (Fin.natAdd 1024 k) * _ = _
    unfold joined
    rw [dif_neg hk]
    have e : (⟨(Fin.natAdd 1024 k : Fin (1024 + 1024)).val - 1024, by have := k.isLt; show 1024 + k.val - 1024 < 1024; omega⟩ : Fin 1024) = k :=
      Fin.ext (by show 1024 + k.val - 1024 = k.val; omega)
    rw [e]
    rfl

/-- The new cell state at `(r, q)`. -/
def cellAt (x h c : (⟨2, ![8192, 1024]⟩ : Shape).Idx → EReal)
    (Wf : (⟨2, ![2048, 1024]⟩ : Shape).Idx → EReal) (bf : (⟨1, ![1024]⟩ : Shape).Idx → EReal)
    (Wi : (⟨2, ![2048, 1024]⟩ : Shape).Idx → EReal) (bi : (⟨1, ![1024]⟩ : Shape).Idx → EReal)
    (Wu : (⟨2, ![2048, 1024]⟩ : Shape).Idx → EReal) (bu : (⟨1, ![1024]⟩ : Shape).Idx → EReal)
    (r : Fin 8192) (q : Fin 1024) : EReal :=
  c (ix2 r q) * Ideal.logistic (pre x h Wf bf r q) + Ideal.logistic (pre x h Wi bi r q) * Ideal.tanh (pre x h Wu bu r q)

/-- The new hidden state at `(r, q)`. -/
def hiddenAt (x h c : (⟨2, ![8192, 1024]⟩ : Shape).Idx → EReal)
    (Wf : (⟨2, ![2048, 1024]⟩ : Shape).Idx → EReal) (bf : (⟨1, ![1024]⟩ : Shape).Idx → EReal)
    (Wi : (⟨2, ![2048, 1024]⟩ : Shape).Idx → EReal) (bi : (⟨1, ![1024]⟩ : Shape).Idx → EReal)
    (Wu : (⟨2, ![2048, 1024]⟩ : Shape).Idx → EReal) (bu : (⟨1, ![1024]⟩ : Shape).Idx → EReal)
    (Wo : (⟨2, ![2048, 1024]⟩ : Shape).Idx → EReal) (bo : (⟨1, ![1024]⟩ : Shape).Idx → EReal)
    (r : Fin 8192) (q : Fin 1024) : EReal :=
  Ideal.logistic (pre x h Wo bo r q) * Ideal.tanh (cellAt x h c Wf bf Wi bi Wu bu r q)

/-- The new cell state as a whole array. -/
def cellArr (x h c : (⟨2, ![8192, 1024]⟩ : Shape).Idx → EReal)
    (Wf : (⟨2, ![2048, 1024]⟩ : Shape).Idx → EReal) (bf : (⟨1, ![1024]⟩ : Shape).Idx → EReal)
    (Wi : (⟨2, ![2048, 1024]⟩ : Shape).Idx → EReal) (bi : (⟨1, ![1024]⟩ : Shape).Idx → EReal)
    (Wu : (⟨2, ![2048, 1024]⟩ : Shape).Idx → EReal) (bu : (⟨1, ![1024]⟩ : Shape).Idx → EReal) :
    (⟨2, ![8192, 1024]⟩ : Shape).Idx → EReal :=
  fun i => cellAt x h c Wf bf Wi bi Wu bu (i 0) (i 1)

/-- The new hidden state as a whole array. -/
def hiddenArr (x h c : (⟨2, ![8192, 1024]⟩ : Shape).Idx → EReal)
    (Wf : (⟨2, ![2048, 1024]⟩ : Shape).Idx → EReal) (bf : (⟨1, ![1024]⟩ : Shape).Idx → EReal)
    (Wi : (⟨2, ![2048, 1024]⟩ : Shape).Idx → EReal) (bi : (⟨1, ![1024]⟩ : Shape).Idx → EReal)
    (Wu : (⟨2, ![2048, 1024]⟩ : Shape).Idx → EReal) (bu : (⟨1, ![1024]⟩ : Shape).Idx → EReal)
    (Wo : (⟨2, ![2048, 1024]⟩ : Shape).Idx → EReal) (bo : (⟨1, ![1024]⟩ : Shape).Idx → EReal) :
    (⟨2, ![8192, 1024]⟩ : Shape).Idx → EReal :=
  fun i => hiddenAt x h c Wf bf Wi bi Wu bu Wo bo (i 0) (i 1)

/-- The float word of `1.0` denotes the real number one. -/
theorem one_word : Ideal.ofBits .f32 0x3F800000#32 = 1 := by
  simp [Ideal.ofBits, Ideal.ieee, -EReal.coe_mul]; norm_num

/-- The logistic function spelled by its four operations on a value already read at an index. -/
theorem logistic_spelled (v : EReal) :
    Ideal.div (Ideal.ofBits .f32 0x3F800000#32) (Ideal.ofBits .f32 0x3F800000#32 + Ideal.exp (-v)) = Ideal.logistic v := by
  rw [one_word]; rfl

end Cert.LstmCell

end
-- ==== Proof.FusedSpec.lean ====
/-
  The same cell over the gate-major layout the kernel prepares.

  The kernel first lays the four gates' weights side by side: `WX` (1024 × 4096) holds, in column `1024·g + q`, the
  upper half (the rows multiplying `x`) of gate `g`'s weight column `q`; `WH` the lower half (the rows multiplying
  `h`); `B` (1 × 4096) the biases.  Over that layout the pre-activation of column `col` is
      (∑ₖ x[r,k] · WX[k,col] + ∑ₖ h[r,k] · WH[k,col]) + B[0,col],
  and at `col = 1024·g + q` this is gate `g`'s pre-activation at `q`: the layout only renames indices.
-/
import proofs.«112480_j55044300866146_2_alg».proof.Proof.CellSpec

noncomputable section

open scoped BigOperators

namespace Cert.LstmCell

open Idealize.ShloMosaic Idealize.ShloMosaic.ValueIdx

/-- Column `o + q` of the 4096 columns. -/
abbrev colAt (o : Nat) (ho : o + 1024 ≤ 4096) (q : Fin 1024) : Fin 4096 := ⟨o + q.val, by have := q.isLt; omega⟩

/-- The column inside its gate's block of 1024. -/
abbrev inGate (col : Fin 4096) : Fin 1024 := ⟨col.val % 1024, Nat.mod_lt _ (by decide)⟩

/-- Which of the four gates a column belongs to, as a choice among four things. -/
def pick {α : Type} (f i u o : α) (col : Fin 4096) : α :=
  if col.val < 1024 then f else if col.val < 2048 then i else if col.val < 3072 then u else o

theorem pick_forget {α : Type} (f i u o : α) (q : Fin 1024) : pick f i u o (colAt 0 (by decide) q) = f := by
  unfold pick; rw [if_pos (by show 0 + q.val < 1024; have := q.isLt; omega)]
theorem pick_input {α : Type} (f i u o : α) (q : Fin 1024) : pick f i u o (colAt 1024 (by decide) q) = i := by
  unfold pick
  rw [if_neg (by show ¬ (1024 + q.val < 1024); omega), if_pos (by show 1024 + q.val < 2048; have := q.isLt; omega)]
theorem pick_update {α : Type} (f i u o : α) (q : Fin 1024) : pick f i u o (colAt 2048 (by decide) q) = u := by
  unfold pick
  rw [if_neg (by show ¬ (2048 + q.val < 1024); omega), if_neg (by show ¬ (2048 + q.val < 2048); omega),
    if_pos (by show 2048 + q.val < 3072; have := q.isLt; omega)]
theorem pick_out {α : Type} (f i u o : α) (q : Fin 1024) : pick f i u o (colAt 3072 (by decide) q) = o := by
  unfold pick
  rw [if_neg (by show ¬ (3072 + q.val < 1024); omega), if_neg (by show ¬ (3072 + q.val < 2048); omega),
    if_neg (by show ¬ (3072 + q.val < 3072); omega)]

/-- The upper halves of the four weights, side by side. -/
def fusedWx (Wf Wi Wu Wo : (⟨2, ![2048, 1024]⟩ : Shape).Idx → EReal) : (⟨2, ![1024, 4096]⟩ : Shape).Idx → EReal :=
  fun i => pick Wf Wi Wu Wo (i 1) (ix2 (upper (i 0)) (inGate (i 1)))
/-- The lower halves of the four weights, side by side. -/
def fusedWh (Wf Wi Wu Wo : (⟨2, ![2048, 1024]⟩ : Shape).Idx → EReal) : (⟨2, ![1024, 4096]⟩ : Shape).Idx → EReal :=
  fun i => pick Wf Wi Wu Wo (i 1) (ix2 (lower (i 0)) (inGate (i 1)))
/-- The four biases, side by side, as one row. -/
def fusedB (bf bi bu bo : (⟨1, ![1024]⟩ : Shape).Idx → EReal) : (⟨2, ![1, 4096]⟩ : Shape).Idx → EReal :=
  fun i => pick bf bi bu bo (i 1) (ix1 (inGate (i 1)))

/-- The pre-activation of column `col` over the gate-major layout. -/
def fusedPre (x h : (⟨2, ![8192, 1024]⟩ : Shape).Idx → EReal) (WX WH : (⟨2, ![1024, 4096]⟩ : Shape).Idx → EReal) (B : (⟨2, ![1, 4096]⟩ : Shape).Idx → EReal) (r : Fin 8192) (col : Fin 4096) : EReal :=
  (∑ k : Fin 1024, x (ix2 r k) * WX (ix2 k col) + ∑ k : Fin 1024, h (ix2 r k) * WH (ix2 k col)) + B (ix2 0 col)

/-- At column `o + q` of a gate's block the layout reads that gate's weight `W` and bias `b` at `q`. -/
theorem fusedPre_at (o : Nat) (ho : o + 1024 ≤ 4096) (ho' : o % 1024 = 0) (x h : (⟨2, ![8192, 1024]⟩ : Shape).Idx → EReal)
    (Wf Wi Wu Wo : (⟨2, ![2048, 1024]⟩ : Shape).Idx → EReal) (bf bi bu bo : (⟨1, ![1024]⟩ : Shape).Idx → EReal) (W : (⟨2, ![2048, 1024]⟩ : Shape).Idx → EReal) (b : (⟨1, ![1024]⟩ : Shape).Idx → EReal) (r : Fin 8192) (q : Fin 1024)
    (hW : pick Wf Wi Wu Wo (colAt o ho q) = W) (hb : pick bf bi bu bo (colAt o ho q) = b) :
    fusedPre x h (fusedWx Wf Wi Wu Wo) (fusedWh Wf Wi Wu Wo) (fusedB bf bi bu bo) r (colAt o ho q) = pre x h W b r q := by
  have hq : inGate (colAt o ho q) = q := Fin.ext (by show (o + q.val) % 1024 = q.val; have := q.isLt; omega)
  show (∑ k : Fin 1024, x (ix2 r k) * pick Wf Wi Wu Wo (colAt o ho q) (ix2 (upper k) (inGate (colAt o ho q)))
      + ∑ k : Fin 1024, h (ix2 r k) * pick Wf Wi Wu Wo (colAt o ho q) (ix2 (lower k) (inGate (colAt o ho q))))
      + pick bf bi bu bo (colAt o ho q) (ix1 (inGate (colAt o ho q))) = _
  rw [hW, hb, hq]
  rfl

/-- The new cell state over the gate-major layout. -/
def fusedCell (x h c : (⟨2, ![8192, 1024]⟩ : Shape).Idx → EReal) (WX WH : (⟨2, ![1024, 4096]⟩ : Shape).Idx → EReal) (B : (⟨2, ![1, 4096]⟩ : Shape).Idx → EReal) : (⟨2, ![8192, 1024]⟩ : Shape).Idx → EReal :=
  fun i => c i * Ideal.logistic (fusedPre x h WX WH B (i 0) (colAt 0 (by decide) (i 1)))
    + Ideal.logistic (fusedPre x h WX WH B (i 0) (colAt 1024 (by decide) (i 1)))
      * Ideal.tanh (fusedPre x h WX WH B (i 0) (colAt 2048 (by decide) (i 1)))

/-- The new hidden state over the gate-major layout. -/
def fusedHidden (x h c : (⟨2, ![8192, 1024]⟩ : Shape).Idx → EReal) (WX WH : (⟨2, ![1024, 4096]⟩ : Shape).Idx → EReal) (B : (⟨2, ![1, 4096]⟩ : Shape).Idx → EReal) : (⟨2, ![8192, 1024]⟩ : Shape).Idx → EReal :=
  fun i => Ideal.logistic (fusedPre x h WX WH B (i 0) (colAt 3072 (by decide) (i 1))) * Ideal.tanh (fusedCell x h c WX WH B i)

theorem fusedCell_eq (x h c : (⟨2, ![8192, 1024]⟩ : Shape).Idx → EReal) (Wf Wi Wu Wo : (⟨2, ![2048, 1024]⟩ : Shape).Idx → EReal) (bf bi bu bo : (⟨1, ![1024]⟩ : Shape).Idx → EReal) :
    fusedCell x h c (fusedWx Wf Wi Wu Wo) (fusedWh Wf Wi Wu Wo) (fusedB bf bi bu bo) = cellArr x h c Wf bf Wi bi Wu bu := by
  funext i
  unfold fusedCell cellArr cellAt
  rw [fusedPre_at 0 (by decide) (by decide) x h Wf Wi Wu Wo bf bi bu bo Wf bf (i 0) (i 1) (pick_forget ..) (pick_forget ..),
    fusedPre_at 1024 (by decide) (by decide) x h Wf Wi Wu Wo bf bi bu bo Wi bi (i 0) (i 1) (pick_input ..) (pick_input ..),
    fusedPre_at 2048 (by decide) (by decide) x h Wf Wi Wu Wo bf bi bu bo Wu bu (i 0) (i 1) (pick_update ..) (pick_update ..)]
  exact congrArg (fun t : EReal => t * Ideal.logistic (pre x h Wf bf (i 0) (i 1))
    + Ideal.logistic (pre x h Wi bi (i 0) (i 1)) * Ideal.tanh (pre x h Wu bu (i 0) (i 1))) (congrArg c (eq_ix2 i))

theorem fusedHidden_eq (x h c : (⟨2, ![8192, 1024]⟩ : Shape).Idx → EReal) (Wf Wi Wu Wo : (⟨2, ![2048, 1024]⟩ : Shape).Idx → EReal) (bf bi bu bo : (⟨1, ![1024]⟩ : Shape).Idx → EReal) :
    fusedHidden x h c (fusedWx Wf Wi Wu Wo) (fusedWh Wf Wi Wu Wo) (fusedB bf bi bu bo) = hiddenArr x h c Wf bf Wi bi Wu bu Wo bo := by
  funext i
  unfold fusedHidden hiddenArr hiddenAt
  rw [fusedPre_at 3072 (by decide) (by decide) x h Wf Wi Wu Wo bf bi bu bo Wo bo (i 0) (i 1) (pick_out ..) (pick_out ..),
    fusedCell_eq]
  rfl

end Cert.LstmCell

end
-- ==== Proof.CellRegion.lean ====
/-
  The second region: from blocks to arrays.

  Grid point `t` of 32 stages rows `256·t … 256·t + 255` of `x`, `h`, `c` and the whole of the gate-major weights
  and bias, and writes back rows `256·t …` of the two results.  So each result array ends holding, at row
  `r = 256·t + p`, what the body computes at row `p` of point `t`'s blocks — one whole-array function of the arrays
  the region finds, the row blocks tiling the 8192 rows.
-/
import proofs.«112480_j55044300866146_2_alg».proof.Proof.Gen.KernelIdeal.Frame
import proofs.«112480_j55044300866146_2_alg».proof.Proof.CellPayload
import proofs.«112480_j55044300866146_2_alg».proof.Proof.FusedSpec
import Idealize.ShloMosaic.Lib.Pipeline.Value

set_option maxRecDepth 16384

noncomputable section

open scoped BigOperators

namespace Cert.KernelIdeal.CellRegion

open Cert.KernelIdeal Cert.KernelIdeal.Gen Cert.KernelIdeal.CellPayload Cert.LstmCell
open Idealize.ShloMosaic Idealize.ShloMosaic.ValueIdx Idealize.ShloMosaic.TcCoe Idealize.SL.Sem
open Idealize.ShloMosaic.Pipeline (Dat)

theorem hz : (![0, 0] : Fin 2 → Nat) = fun _ => 0 := funext fun a => by fin_cases a <;> rfl

/-- Row `256·t + p` of the 8192 rows. -/
abbrev rowOf (t : Fin cfg1.N) (p : Fin 256) : Fin 8192 :=
  ⟨256 * t.val + p.val, by have := lt_of_lt_of_eq t.isLt (show cfg1.N = 32 from N_1); have := p.isLt; omega⟩

/-! The printed index maps, decided over the grid: the row windows move with the point, the weights stay. -/
theorem idx_rows0 : ∀ t : Fin cfg1.N, win1_0.index t (0 : Fin 2) = t.val ∧ win1_0.index t (1 : Fin 2) = 0 :=
  (by decide +kernel : ∀ t : Fin grid1.N, _)
theorem idx_rows1 : ∀ t : Fin cfg1.N, win1_1.index t (0 : Fin 2) = t.val ∧ win1_1.index t (1 : Fin 2) = 0 :=
  (by decide +kernel : ∀ t : Fin grid1.N, _)
theorem idx_rows2 : ∀ t : Fin cfg1.N, win1_2.index t (0 : Fin 2) = t.val ∧ win1_2.index t (1 : Fin 2) = 0 :=
  (by decide +kernel : ∀ t : Fin grid1.N, _)
theorem idx_rows6 : ∀ t : Fin cfg1.N, win1_6.index t (0 : Fin 2) = t.val ∧ win1_6.index t (1 : Fin 2) = 0 :=
  (by decide +kernel : ∀ t : Fin grid1.N, _)
theorem idx_rows7 : ∀ t : Fin cfg1.N, win1_7.index t (0 : Fin 2) = t.val ∧ win1_7.index t (1 : Fin 2) = 0 :=
  (by decide +kernel : ∀ t : Fin grid1.N, _)
theorem idx_whole3 : ∀ t : Fin cfg1.N, win1_3.index t (0 : Fin 2) = 0 ∧ win1_3.index t (1 : Fin 2) = 0 :=
  (by decide +kernel : ∀ t : Fin grid1.N, _)
theorem idx_whole4 : ∀ t : Fin cfg1.N, win1_4.index t (0 : Fin 2) = 0 ∧ win1_4.index t (1 : Fin 2) = 0 :=
  (by decide +kernel : ∀ t : Fin grid1.N, _)
theorem idx_whole5 : ∀ t : Fin cfg1.N, win1_5.index t (0 : Fin 2) = 0 ∧ win1_5.index t (1 : Fin 2) = 0 :=
  (by decide +kernel : ∀ t : Fin grid1.N, _)

/-- The body's values at an index of the block, by its coordinates. -/
theorem cell_at (x h c : Vec Ideal S256x1024 .f32) (wx wh : Vec Ideal S1024x4096 .bf16) (b : Vec Ideal S1x4096 .f32) (y : S256x1024.Idx) :
    k1_pay2 x h wx wh b c y = cellOf x h c wx wh b (y 0) (y 1) :=
  (congrArg (k1_pay2 x h wx wh b c) (eq_ix2 y)).trans (cell_apply x h c wx wh b (y 0) (y 1))
theorem hidden_at (x h c : Vec Ideal S256x1024 .f32) (wx wh : Vec Ideal S1024x4096 .bf16) (b : Vec Ideal S1x4096 .f32) (y : S256x1024.Idx) :
    k1_pay3 x h wx wh b c y = hiddenOf x h c wx wh b (y 0) (y 1) :=
  (congrArg (k1_pay3 x h wx wh b c) (eq_ix2 y)).trans (hidden_apply x h c wx wh b (y 0) (y 1))

/-- A block whose rows are rows `ρ p` of whole arrays computes those rows of the cell over the whole arrays. -/
theorem cellOf_eq_fused (x h c : Vec Ideal S256x1024 .f32) (wx wh : Vec Ideal S1024x4096 .bf16) (b : Vec Ideal S1x4096 .f32)
    (X H C : (⟨2, ![8192, 1024]⟩ : Shape).Idx → EReal) (ρ : Fin 256 → Fin 8192)
    (hx : ∀ p k, x (ix2 p k) = X (ix2 (ρ p) k)) (hh : ∀ p k, h (ix2 p k) = H (ix2 (ρ p) k)) (hc : ∀ p k, c (ix2 p k) = C (ix2 (ρ p) k))
    (p : Fin 256) (q : Fin 1024) :
    cellOf x h c wx wh b p q = fusedCell X H C wx wh b (ix2 (ρ p) q) := by
  unfold cellOf fusedCell table fusedPre
  simp only [hx, hh, hc]

theorem hiddenOf_eq_fused (x h c : Vec Ideal S256x1024 .f32) (wx wh : Vec Ideal S1024x4096 .bf16) (b : Vec Ideal S1x4096 .f32)
    (X H C : (⟨2, ![8192, 1024]⟩ : Shape).Idx → EReal) (ρ : Fin 256 → Fin 8192)
    (hx : ∀ p k, x (ix2 p k) = X (ix2 (ρ p) k)) (hh : ∀ p k, h (ix2 p k) = H (ix2 (ρ p) k)) (hc : ∀ p k, c (ix2 p k) = C (ix2 (ρ p) k))
    (p : Fin 256) (q : Fin 1024) :
    hiddenOf x h c wx wh b p q = fusedHidden X H C wx wh b (ix2 (ρ p) q) := by
  unfold hiddenOf fusedHidden
  rw [cellOf_eq_fused x h c wx wh b X H C ρ hx hh hc p q]
  unfold table fusedPre
  simp only [hx, hh]

section
variable (V : (c : Dev nD) → (b : Ref sig .tc) → Buf (Elt Ideal) ((c : Thread nD τ).loc b))

/-- Window 0's block at point `t` is rows `256·t …` of its array. -/
theorem rows0 (c : Dev nD) (t : Fin cfg1.N) (p : Fin 256) (k : Fin 1024) :
    (iblk1 V c 0 t : Vec Ideal S256x1024 .f32) (ix2 p k) = V c main_arg0 (ix2 (rowOf t p) k) := by
  obtain ⟨e0, e1⟩ := idx_rows0 t
  show V c main_arg0 (((cfg1.win 0).blk t).view.emb (ix2 p k)) = V c main_arg0 (ix2 (rowOf t p) k)
  refine congrArg (V c main_arg0) (funext fun a => Fin.ext ?_)
  match a with
  | ⟨0, _⟩ => show win1_0.index t (0 : Fin 2) * 256 + 1 * p.val = 256 * t.val + p.val; rw [e0]; omega
  | ⟨1, _⟩ => show win1_0.index t (1 : Fin 2) * 1024 + 1 * k.val = k.val; rw [e1]; omega

/-- Window 1's block at point `t` is rows `256·t …` of its array. -/
theorem rows1 (c : Dev nD) (t : Fin cfg1.N) (p : Fin 256) (k : Fin 1024) :
    (iblk1 V c 1 t : Vec Ideal S256x1024 .f32) (ix2 p k) = V c main_arg1 (ix2 (rowOf t p) k) := by
  obtain ⟨e0, e1⟩ := idx_rows1 t
  show V c main_arg1 (((cfg1.win 1).blk t).view.emb (ix2 p k)) = V c main_arg1 (ix2 (rowOf t p) k)
  refine congrArg (V c main_arg1) (funext fun a => Fin.ext ?_)
  match a with
  | ⟨0, _⟩ => show win1_1.index t (0 : Fin 2) * 256 + 1 * p.val = 256 * t.val + p.val; rw [e0]; omega
  | ⟨1, _⟩ => show win1_1.index t (1 : Fin 2) * 1024 + 1 * k.val = k.val; rw [e1]; omega

/-- Window 2's block at point `t` is rows `256·t …` of its array. -/
theorem rows2 (c : Dev nD) (t : Fin cfg1.N) (p : Fin 256) (k : Fin 1024) :
    (iblk1 V c 2 t : Vec Ideal S256x1024 .f32) (ix2 p k) = V c main_arg2 (ix2 (rowOf t p) k) := by
  obtain ⟨e0, e1⟩ := idx_rows2 t
  show V c main_arg2 (((cfg1.win 2).blk t).view.emb (ix2 p k)) = V c main_arg2 (ix2 (rowOf t p) k)
  refine congrArg (V c main_arg2) (funext fun a => Fin.ext ?_)
  match a with
  | ⟨0, _⟩ => show win1_2.index t (0 : Fin 2) * 256 + 1 * p.val = 256 * t.val + p.val; rw [e0]; omega
  | ⟨1, _⟩ => show win1_2.index t (1 : Fin 2) * 1024 + 1 * k.val = k.val; rw [e1]; omega

/-- Window 3's block at every point is its whole array. -/
theorem whole3 (c : Dev nD) (t : Fin cfg1.N) : (iblk1 V c 3 t : Vec Ideal S1024x4096 .bf16) = V c main_v4_0 := by
  obtain ⟨e0, e1⟩ := idx_whole3 t
  funext y
  show V c main_v4_0 (((cfg1.win 3).blk t).view.emb y) = V c main_v4_0 y
  refine congrArg (V c main_v4_0) (funext fun a => Fin.ext ?_)
  match a with
  | ⟨0, _⟩ => show win1_3.index t (0 : Fin 2) * 1024 + 1 * (y 0).val = (y 0).val; rw [e0]; omega
  | ⟨1, _⟩ => show win1_3.index t (1 : Fin 2) * 4096 + 1 * (y 1).val = (y 1).val; rw [e1]; omega

/-- Window 4's block at every point is its whole array. -/
theorem whole4 (c : Dev nD) (t : Fin cfg1.N) : (iblk1 V c 4 t : Vec Ideal S1024x4096 .bf16) = V c main_v4_1 := by
  obtain ⟨e0, e1⟩ := idx_whole4 t
  funext y
  show V c main_v4_1 (((cfg1.win 4).blk t).view.emb y) = V c main_v4_1 y
  refine congrArg (V c main_v4_1) (funext fun a => Fin.ext ?_)
  match a with
  | ⟨0, _⟩ => show win1_4.index t (0 : Fin 2) * 1024 + 1 * (y 0).val = (y 0).val; rw [e0]; omega
  | ⟨1, _⟩ => show win1_4.index t (1 : Fin 2) * 4096 + 1 * (y 1).val = (y 1).val; rw [e1]; omega

/-- Window 5's block at every point is its whole array. -/
theorem whole5 (c : Dev nD) (t : Fin cfg1.N) : (iblk1 V c 5 t : Vec Ideal S1x4096 .f32) = V c main_v4_2 := by
  obtain ⟨e0, e1⟩ := idx_whole5 t
  funext y
  show V c main_v4_2 (((cfg1.win 5).blk t).view.emb y) = V c main_v4_2 y
  refine congrArg (V c main_v4_2) (funext fun a => Fin.ext ?_)
  match a with
  | ⟨0, _⟩ => show win1_5.index t (0 : Fin 2) * 1 + 1 * (y 0).val = (y 0).val; rw [e0]; omega
  | ⟨1, _⟩ => show win1_5.index t (1 : Fin 2) * 4096 + 1 * (y 1).val = (y 1).val; rw [e1]; omega

/-- Where point `t`'s block of output window 7 sits in its array. -/
theorem emb7 (t : Fin cfg1.N) (j : S256x1024.Idx) :
    ((cfg1.win 7).blk t).view.emb j = ix2 (rowOf t (j 0)) (j 1) := by
  obtain ⟨e0, e1⟩ := idx_rows7 t
  funext a
  apply Fin.ext
  match a with
  | ⟨0, _⟩ => show win1_7.index t (0 : Fin 2) * 256 + 1 * (j 0).val = 256 * t.val + (j 0).val; rw [e0]; omega
  | ⟨1, _⟩ => show win1_7.index t (1 : Fin 2) * 1024 + 1 * (j 1).val = (j 1).val; rw [e1]; omega

/-- What point `t` writes back through output window 7 is its block of the new cell state over the region's entry contents. -/
theorem flushed7 (c : Dev nD) (t : Fin cfg1.N) :
    (dat1 V c).flushed 7 t = ((cfg1.win 7).blk t).view.read (Elt Ideal)
      (fusedCell (V c main_arg0) (V c main_arg1) (V c main_arg2) (V c main_v4_0) (V c main_v4_1) (V c main_v4_2)) := by
  show (cfg1.win 7).cut (grid1.coords t) ((dat1 V c).after 7 t) = _
  rw [after1_7]
  unfold out1_7
  rw [View.canon_unit_zero hz]
  simp only [View.ld_unit_zero (S := S256x1024) hz, View.ld_unit_zero (S := S1024x4096) hz, View.ld_unit_zero (S := S1x4096) hz]
  funext j
  refine (cell_at _ _ _ _ _ _ j).trans ?_
  refine (cellOf_eq_fused (iblk1 V c 0 t) (iblk1 V c 1 t) (iblk1 V c 2 t) (iblk1 V c 3 t) (iblk1 V c 4 t) (iblk1 V c 5 t)
    (V c main_arg0) (V c main_arg1) (V c main_arg2) (fun p => rowOf t p) (rows0 V c t) (rows1 V c t) (rows2 V c t) (j 0) (j 1)).trans ?_
  rw [whole3 V c t, whole4 V c t, whole5 V c t]
  show _ = fusedCell (V c main_arg0) (V c main_arg1) (V c main_arg2) (V c main_v4_0) (V c main_v4_1) (V c main_v4_2) (((cfg1.win 7).blk t).view.emb j)
  rw [emb7]
  rfl

theorem mem_blk7 (t : Fin cfg1.N) (i : S8192x1024.Idx) :
    i ∈ ((cfg1.win 7).blk t).view.set ↔ ∀ a : Fin 2, win1_7.index t a * S256x1024.size a ≤ (i a).val ∧ (i a).val < win1_7.index t a * S256x1024.size a + S256x1024.size a := by
  show i ∈ ((View.whole main_v5_1).slice (win1_7.rect t)).set ↔ _
  rw [View.set_slice_whole, Rect.mem_set_unit]
  exact Iff.rfl

/-- Every row of the array is in the block of the point `row / 256`. -/
theorem cover7 (i : S8192x1024.Idx) : ∃ t : Fin cfg1.N, (cfg1.win 7).flush t = true ∧ i ∈ ((cfg1.win 7).blk t).view.set := by
  have hi0 : (i 0).val < 8192 := (i 0).isLt
  have hi1 : (i 1).val < 1024 := (i 1).isLt
  have hN : cfg1.N = 32 := N_1
  refine ⟨⟨(i 0).val / 256, by rw [hN]; omega⟩, flush1_7 _, ?_⟩
  obtain ⟨e0, e1⟩ := idx_rows7 ⟨(i 0).val / 256, by rw [hN]; omega⟩
  rw [mem_blk7]
  intro a
  match a with
  | ⟨0, _⟩ =>
    show win1_7.index ⟨(i 0).val / 256, _⟩ (0 : Fin 2) * 256 ≤ (i 0).val ∧ (i 0).val < win1_7.index ⟨(i 0).val / 256, _⟩ (0 : Fin 2) * 256 + 256
    rw [e0]; show (i 0).val / 256 * 256 ≤ (i 0).val ∧ (i 0).val < (i 0).val / 256 * 256 + 256; omega
  | ⟨1, _⟩ =>
    show win1_7.index ⟨(i 0).val / 256, _⟩ (1 : Fin 2) * 1024 ≤ (i 1).val ∧ (i 1).val < win1_7.index ⟨(i 0).val / 256, _⟩ (1 : Fin 2) * 1024 + 1024
    rw [e1]; omega

/-- The array of output window 7 after the region: the new cell state over the region's entry contents. -/
theorem final7 (c : Dev nD) : (dat1 V c).arrAt 7 cfg1.N
    = fusedCell (V c main_arg0) (V c main_arg1) (V c main_arg2) (V c main_v4_0) (V c main_v4_1) (V c main_v4_2) :=
  (dat1 V c).arrAt_eq_of_cover 7 _ (fun t _ => flushed7 V c t) cover7

/-- Where point `t`'s block of output window 6 sits in its array. -/
theorem emb6 (t : Fin cfg1.N) (j : S256x1024.Idx) :
    ((cfg1.win 6).blk t).view.emb j = ix2 (rowOf t (j 0)) (j 1) := by
  obtain ⟨e0, e1⟩ := idx_rows6 t
  funext a
  apply Fin.ext
  match a with
  | ⟨0, _⟩ => show win1_6.index t (0 : Fin 2) * 256 + 1 * (j 0).val = 256 * t.val + (j 0).val; rw [e0]; omega
  | ⟨1, _⟩ => show win1_6.index t (1 : Fin 2) * 1024 + 1 * (j 1).val = (j 1).val; rw [e1]; omega

/-- What point `t` writes back through output window 6 is its block of the new hidden state over the region's entry contents. -/
theorem flushed6 (c : Dev nD) (t : Fin cfg1.N) :
    (dat1 V c).flushed 6 t = ((cfg1.win 6).blk t).view.read (Elt Ideal)
      (fusedHidden (V c main_arg0) (V c main_arg1) (V c main_arg2) (V c main_v4_0) (V c main_v4_1) (V c main_v4_2)) := by
  show (cfg1.win 6).cut (grid1.coords t) ((dat1 V c).after 6 t) = _
  rw [after1_6]
  unfold out1_6
  rw [View.canon_unit_zero hz]
  simp only [View.ld_unit_zero (S := S256x1024) hz, View.ld_unit_zero (S := S1024x4096) hz, View.ld_unit_zero (S := S1x4096) hz]
  funext j
  refine (hidden_at _ _ _ _ _ _ j).trans ?_
  refine (hiddenOf_eq_fused (iblk1 V c 0 t) (iblk1 V c 1 t) (iblk1 V c 2 t) (iblk1 V c 3 t) (iblk1 V c 4 t) (iblk1 V c 5 t)
    (V c main_arg0) (V c main_arg1) (V c main_arg2) (fun p => rowOf t p) (rows0 V c t) (rows1 V c t) (rows2 V c t) (j 0) (j 1)).trans ?_
  rw [whole3 V c t, whole4 V c t, whole5 V c t]
  show _ = fusedHidden (V c main_arg0) (V c main_arg1) (V c main_arg2) (V c main_v4_0) (V c main_v4_1) (V c main_v4_2) (((cfg1.win 6).blk t).view.emb j)
  rw [emb6]
  rfl

theorem mem_blk6 (t : Fin cfg1.N) (i : S8192x1024.Idx) :
    i ∈ ((cfg1.win 6).blk t).view.set ↔ ∀ a : Fin 2, win1_6.index t a * S256x1024.size a ≤ (i a).val ∧ (i a).val < win1_6.index t a * S256x1024.size a + S256x1024.size a := by
  show i ∈ ((View.whole main_v5_0).slice (win1_6.rect t)).set ↔ _
  rw [View.set_slice_whole, Rect.mem_set_unit]
  exact Iff.rfl

/-- Every row of the array is in the block of the point `row / 256`. -/
theorem cover6 (i : S8192x1024.Idx) : ∃ t : Fin cfg1.N, (cfg1.win 6).flush t = true ∧ i ∈ ((cfg1.win 6).blk t).view.set := by
  have hi0 : (i 0).val < 8192 := (i 0).isLt
  have hi1 : (i 1).val < 1024 := (i 1).isLt
  have hN : cfg1.N = 32 := N_1
  refine ⟨⟨(i 0).val / 256, by rw [hN]; omega⟩, flush1_6 _, ?_⟩
  obtain ⟨e0, e1⟩ := idx_rows6 ⟨(i 0).val / 256, by rw [hN]; omega⟩
  rw [mem_blk6]
  intro a
  match a with
  | ⟨0, _⟩ =>
    show win1_6.index ⟨(i 0).val / 256, _⟩ (0 : Fin 2) * 256 ≤ (i 0).val ∧ (i 0).val < win1_6.index ⟨(i 0).val / 256, _⟩ (0 : Fin 2) * 256 + 256
    rw [e0]; show (i 0).val / 256 * 256 ≤ (i 0).val ∧ (i 0).val < (i 0).val / 256 * 256 + 256; omega
  | ⟨1, _⟩ =>
    show win1_6.index ⟨(i 0).val / 256, _⟩ (1 : Fin 2) * 1024 ≤ (i 1).val ∧ (i 1).val < win1_6.index ⟨(i 0).val / 256, _⟩ (1 : Fin 2) * 1024 + 1024
    rw [e1]; omega

/-- The array of output window 6 after the region: the new hidden state over the region's entry contents. -/
theorem final6 (c : Dev nD) : (dat1 V c).arrAt 6 cfg1.N
    = fusedHidden (V c main_arg0) (V c main_arg1) (V c main_arg2) (V c main_v4_0) (V c main_v4_1) (V c main_v4_2) :=
  (dat1 V c).arrAt_eq_of_cover 6 _ (fun t _ => flushed6 V c t) cover6

end

end Cert.KernelIdeal.CellRegion

end
-- ==== Proof.PrepPieces.lean ====
/-
  The first region's four branches, each read back as values.

  The body of the first kernel is four branches, one per grid point; each loads one weight (2048 × 1024) and one
  bias row (1 × 1024) and stores the weight's upper 1024 rows, its lower 1024 rows and the bias row through the three
  outputs' buffers.  Read back over the extended reals, where narrowing the float format is the identity, each
  buffer holds exactly those entries.
-/
import proofs.«112480_j55044300866146_2_alg».proof.Proof.Gen.KernelIdeal.Frame
import proofs.«112480_j55044300866146_2_alg».proof.Proof.FusedSpec
import Idealize.ShloMosaic.Lib.Pipeline.Value
import Idealize.ShloMosaic.Lib.Tactic

set_option maxRecDepth 16384

noncomputable section

namespace Cert.KernelIdeal.PrepRegion

open Cert.KernelIdeal Cert.KernelIdeal.Gen Cert.LstmCell
open Idealize.ShloMosaic Idealize.ShloMosaic.ValueIdx Idealize.ShloMosaic.TcCoe Idealize.SL.Sem
open Idealize.ShloMosaic.Pipeline (Dat)

theorem hz : (![0, 0] : Fin 2 → Nat) = fun _ => 0 := funext fun a => by fin_cases a <;> rfl
theorem hz1 : (![0, 0] : Fin 2 → Nat) = fun _ => 0 := hz

/-! ## What each branch leaves in the three outputs' buffers -/

/-- Case A (grid point 0) leaves in the first output's buffer the upper 1024 rows of weight 0. -/
theorem upper_A (c : Dev nD) (i : grid0.Coords) (a1 : Memref sig .tc .vmem S2048x1024 .f32) (h1 : a1.IsWhole) (a2 : Memref sig .tc .vmem S2048x1024 .f32) (h2 : a2.IsWhole) (a3 : Memref sig .tc .vmem S2048x1024 .f32) (h3 : a3.IsWhole) (a4 : Memref sig .tc .vmem S2048x1024 .f32) (h4 : a4.IsWhole) (a5 : Memref sig .tc .vmem S1x1024 .f32) (h5 : a5.IsWhole) (a6 : Memref sig .tc .vmem S1x1024 .f32) (h6 : a6.IsWhole) (a7 : Memref sig .tc .vmem S1x1024 .f32) (h7 : a7.IsWhole) (a8 : Memref sig .tc .vmem S1x1024 .f32) (h8 : a8.IsWhole) (a9 : Memref sig .tc .vmem S1024x1024 .bf16) (h9 : a9.IsWhole) (a10 : Memref sig .tc .vmem S1024x1024 .bf16) (h10 : a10.IsWhole) (a11 : Memref sig .tc .vmem S1x1024 .f32) (h11 : a11.IsWhole)  (hc0 : cond0_0 i) (hc1 : ¬cond0_1 i) (hc2 : ¬cond0_2 i) (hc3 : ¬cond0_3 i) (x0 x1 x2 x3 : Vec Ideal S2048x1024 .f32) (x4 x5 x6 x7 : Vec Ideal S1x1024 .f32) (y : S1024x1024.Idx) :
    out0_A_8 c i a1 h1 a2 h2 a3 h3 a4 h4 a5 h5 a6 h6 a7 h7 a8 h8 a9 h9 a10 h10 a11 h11 hc0 hc1 hc2 hc3 x0 x1 x2 x3 x4 x5 x6 x7 y = x0 (ix2 (upper (y 0)) (y 1)) := by
  unfold out0_A_8
  rw [View.read_writes_eq_canon _ _ _ (cover0_A_8 c i a1 h1 a2 h2 a3 h3 a4 h4 a5 h5 a6 h6 a7 h7 a8 h8 a9 h9 a10 h10 a11 h11 hc0 hc1 hc2 hc3 x0 x1 x2 x3 x4 x5 x6 x7)]
  unfold kernelRun0_A
  dsimp only
  rw [View.canon_unit_zero hz]
  simp only [View.readAt_eq_ld, h1.read_unread]
  show x0 _ = x0 (ix2 (upper (y 0)) (y 1))
  refine congrArg x0 (funext fun a => Fin.ext ?_)
  match a with
  | ⟨0, _⟩ => show 0 + 1 * (y 0).val = (y 0).val; omega
  | ⟨1, _⟩ => show 0 + 1 * (y 1).val = (y 1).val; omega

/-- Case A leaves in the second output's buffer the lower 1024 rows of weight 0. -/
theorem lower_A (c : Dev nD) (i : grid0.Coords) (a1 : Memref sig .tc .vmem S2048x1024 .f32) (h1 : a1.IsWhole) (a2 : Memref sig .tc .vmem S2048x1024 .f32) (h2 : a2.IsWhole) (a3 : Memref sig .tc .vmem S2048x1024 .f32) (h3 : a3.IsWhole) (a4 : Memref sig .tc .vmem S2048x1024 .f32) (h4 : a4.IsWhole) (a5 : Memref sig .tc .vmem S1x1024 .f32) (h5 : a5.IsWhole) (a6 : Memref sig .tc .vmem S1x1024 .f32) (h6 : a6.IsWhole) (a7 : Memref sig .tc .vmem S1x1024 .f32) (h7 : a7.IsWhole) (a8 : Memref sig .tc .vmem S1x1024 .f32) (h8 : a8.IsWhole) (a9 : Memref sig .tc .vmem S1024x1024 .bf16) (h9 : a9.IsWhole) (a10 : Memref sig .tc .vmem S1024x1024 .bf16) (h10 : a10.IsWhole) (a11 : Memref sig .tc .vmem S1x1024 .f32) (h11 : a11.IsWhole)  (hc0 : cond0_0 i) (hc1 : ¬cond0_1 i) (hc2 : ¬cond0_2 i) (hc3 : ¬cond0_3 i) (x0 x1 x2 x3 : Vec Ideal S2048x1024 .f32) (x4 x5 x6 x7 : Vec Ideal S1x1024 .f32) (y : S1024x1024.Idx) :
    out0_A_9 c i a1 h1 a2 h2 a3 h3 a4 h4 a5 h5 a6 h6 a7 h7 a8 h8 a9 h9 a10 h10 a11 h11 hc0 hc1 hc2 hc3 x0 x1 x2 x3 x4 x5 x6 x7 y = x0 (ix2 (lower (y 0)) (y 1)) := by
  unfold out0_A_9
  rw [View.read_writes_eq_canon _ _ _ (cover0_A_9 c i a1 h1 a2 h2 a3 h3 a4 h4 a5 h5 a6 h6 a7 h7 a8 h8 a9 h9 a10 h10 a11 h11 hc0 hc1 hc2 hc3 x0 x1 x2 x3 x4 x5 x6 x7)]
  unfold kernelRun0_A
  dsimp only
  rw [View.canon_unit_zero hz]
  simp only [View.readAt_eq_ld, h1.read_unread]
  show x0 _ = x0 (ix2 (lower (y 0)) (y 1))
  refine congrArg x0 (funext fun a => Fin.ext ?_)
  match a with
  | ⟨0, _⟩ => show 1024 + 1 * (y 0).val = 1024 + (y 0).val; omega
  | ⟨1, _⟩ => show 0 + 1 * (y 1).val = (y 1).val; omega

/-- Case A leaves in the third output's buffer bias row 0. -/
theorem bias_A (c : Dev nD) (i : grid0.Coords) (a1 : Memref sig .tc .vmem S2048x1024 .f32) (h1 : a1.IsWhole) (a2 : Memref sig .tc .vmem S2048x1024 .f32) (h2 : a2.IsWhole) (a3 : Memref sig .tc .vmem S2048x1024 .f32) (h3 : a3.IsWhole) (a4 : Memref sig .tc .vmem S2048x1024 .f32) (h4 : a4.IsWhole) (a5 : Memref sig .tc .vmem S1x1024 .f32) (h5 : a5.IsWhole) (a6 : Memref sig .tc .vmem S1x1024 .f32) (h6 : a6.IsWhole) (a7 : Memref sig .tc .vmem S1x1024 .f32) (h7 : a7.IsWhole) (a8 : Memref sig .tc .vmem S1x1024 .f32) (h8 : a8.IsWhole) (a9 : Memref sig .tc .vmem S1024x1024 .bf16) (h9 : a9.IsWhole) (a10 : Memref sig .tc .vmem S1024x1024 .bf16) (h10 : a10.IsWhole) (a11 : Memref sig .tc .vmem S1x1024 .f32) (h11 : a11.IsWhole)  (hc0 : cond0_0 i) (hc1 : ¬cond0_1 i) (hc2 : ¬cond0_2 i) (hc3 : ¬cond0_3 i) (x0 x1 x2 x3 : Vec Ideal S2048x1024 .f32) (x4 x5 x6 x7 : Vec Ideal S1x1024 .f32) :
    out0_A_10 c i a1 h1 a2 h2 a3 h3 a4 h4 a5 h5 a6 h6 a7 h7 a8 h8 a9 h9 a10 h10 a11 h11 hc0 hc1 hc2 hc3 x0 x1 x2 x3 x4 x5 x6 x7 = x4 := by
  unfold out0_A_10
  rw [View.read_writes_eq_canon _ _ _ (cover0_A_10 c i a1 h1 a2 h2 a3 h3 a4 h4 a5 h5 a6 h6 a7 h7 a8 h8 a9 h9 a10 h10 a11 h11 hc0 hc1 hc2 hc3 x0 x1 x2 x3 x4 x5 x6 x7)]
  unfold kernelRun0_A
  dsimp only
  rw [View.canon_unit_zero hz1]
  simp only [View.readAt_eq_ld, h5.read_unread, View.ld_unit_zero (S := S1x1024) hz1]
  unfold k0_pay3
  rw [shapeCast_self]

/-- Case B (grid point 1) leaves in the first output's buffer the upper 1024 rows of weight 1. -/
theorem upper_B (c : Dev nD) (i : grid0.Coords) (a1 : Memref sig .tc .vmem S2048x1024 .f32) (h1 : a1.IsWhole) (a2 : Memref sig .tc .vmem S2048x1024 .f32) (h2 : a2.IsWhole) (a3 : Memref sig .tc .vmem S2048x1024 .f32) (h3 : a3.IsWhole) (a4 : Memref sig .tc .vmem S2048x1024 .f32) (h4 : a4.IsWhole) (a5 : Memref sig .tc .vmem S1x1024 .f32) (h5 : a5.IsWhole) (a6 : Memref sig .tc .vmem S1x1024 .f32) (h6 : a6.IsWhole) (a7 : Memref sig .tc .vmem S1x1024 .f32) (h7 : a7.IsWhole) (a8 : Memref sig .tc .vmem S1x1024 .f32) (h8 : a8.IsWhole) (a9 : Memref sig .tc .vmem S1024x1024 .bf16) (h9 : a9.IsWhole) (a10 : Memref sig .tc .vmem S1024x1024 .bf16) (h10 : a10.IsWhole) (a11 : Memref sig .tc .vmem S1x1024 .f32) (h11 : a11.IsWhole)  (hc0 : ¬cond0_0 i) (hc1 : cond0_1 i) (hc2 : ¬cond0_2 i) (hc3 : ¬cond0_3 i) (x0 x1 x2 x3 : Vec Ideal S2048x1024 .f32) (x4 x5 x6 x7 : Vec Ideal S1x1024 .f32) (y : S1024x1024.Idx) :
    out0_B_8 c i a1 h1 a2 h2 a3 h3 a4 h4 a5 h5 a6 h6 a7 h7 a8 h8 a9 h9 a10 h10 a11 h11 hc0 hc1 hc2 hc3 x0 x1 x2 x3 x4 x5 x6 x7 y = x1 (ix2 (upper (y 0)) (y 1)) := by
  unfold out0_B_8
  rw [View.read_writes_eq_canon _ _ _ (cover0_B_8 c i a1 h1 a2 h2 a3 h3 a4 h4 a5 h5 a6 h6 a7 h7 a8 h8 a9 h9 a10 h10 a11 h11 hc0 hc1 hc2 hc3 x0 x1 x2 x3 x4 x5 x6 x7)]
  unfold kernelRun0_B
  dsimp only
  rw [View.canon_unit_zero hz]
  simp only [View.readAt_eq_ld, h2.read_unread]
  show x1 _ = x1 (ix2 (upper (y 0)) (y 1))
  refine congrArg x1 (funext fun a => Fin.ext ?_)
  match a with
  | ⟨0, _⟩ => show 0 + 1 * (y 0).val = (y 0).val; omega
  | ⟨1, _⟩ => show 0 + 1 * (y 1).val = (y 1).val; omega

/-- Case B leaves in the second output's buffer the lower 1024 rows of weight 1. -/
theorem lower_B (c : Dev nD) (i : grid0.Coords) (a1 : Memref sig .tc .vmem S2048x1024 .f32) (h1 : a1.IsWhole) (a2 : Memref sig .tc .vmem S2048x1024 .f32) (h2 : a2.IsWhole) (a3 : Memref sig .tc .vmem S2048x1024 .f32) (h3 : a3.IsWhole) (a4 : Memref sig .tc .vmem S2048x1024 .f32) (h4 : a4.IsWhole) (a5 : Memref sig .tc .vmem S1x1024 .f32) (h5 : a5.IsWhole) (a6 : Memref sig .tc .vmem S1x1024 .f32) (h6 : a6.IsWhole) (a7 : Memref sig .tc .vmem S1x1024 .f32) (h7 : a7.IsWhole) (a8 : Memref sig .tc .vmem S1x1024 .f32) (h8 : a8.IsWhole) (a9 : Memref sig .tc .vmem S1024x1024 .bf16) (h9 : a9.IsWhole) (a10 : Memref sig .tc .vmem S1024x1024 .bf16) (h10 : a10.IsWhole) (a11 : Memref sig .tc .vmem S1x1024 .f32) (h11 : a11.IsWhole)  (hc0 : ¬cond0_0 i) (hc1 : cond0_1 i) (hc2 : ¬cond0_2 i) (hc3 : ¬cond0_3 i) (x0 x1 x2 x3 : Vec Ideal S2048x1024 .f32) (x4 x5 x6 x7 : Vec Ideal S1x1024 .f32) (y : S1024x1024.Idx) :
    out0_B_9 c i a1 h1 a2 h2 a3 h3 a4 h4 a5 h5 a6 h6 a7 h7 a8 h8 a9 h9 a10 h10 a11 h11 hc0 hc1 hc2 hc3 x0 x1 x2 x3 x4 x5 x6 x7 y = x1 (ix2 (lower (y 0)) (y 1)) := by
  unfold out0_B_9
  rw [View.read_writes_eq_canon _ _ _ (cover0_B_9 c i a1 h1 a2 h2 a3 h3 a4 h4 a5 h5 a6 h6 a7 h7 a8 h8 a9 h9 a10 h10 a11 h11 hc0 hc1 hc2 hc3 x0 x1 x2 x3 x4 x5 x6 x7)]
  unfold kernelRun0_B
  dsimp only
  rw [View.canon_unit_zero hz]
  simp only [View.readAt_eq_ld, h2.read_unread]
  show x1 _ = x1 (ix2 (lower (y 0)) (y 1))
  refine congrArg x1 (funext fun a => Fin.ext ?_)
  match a with
  | ⟨0, _⟩ => show 1024 + 1 * (y 0).val = 1024 + (y 0).val; omega
  | ⟨1, _⟩ => show 0 + 1 * (y 1).val = (y 1).val; omega

/-- Case B leaves in the third output's buffer bias row 1. -/
theorem bias_B (c : Dev nD) (i : grid0.Coords) (a1 : Memref sig .tc .vmem S2048x1024 .f32) (h1 : a1.IsWhole) (a2 : Memref sig .tc .vmem S2048x1024 .f32) (h2 : a2.IsWhole) (a3 : Memref sig .tc .vmem S2048x1024 .f32) (h3 : a3.IsWhole) (a4 : Memref sig .tc .vmem S2048x1024 .f32) (h4 : a4.IsWhole) (a5 : Memref sig .tc .vmem S1x1024 .f32) (h5 : a5.IsWhole) (a6 : Memref sig .tc .vmem S1x1024 .f32) (h6 : a6.IsWhole) (a7 : Memref sig .tc .vmem S1x1024 .f32) (h7 : a7.IsWhole) (a8 : Memref sig .tc .vmem S1x1024 .f32) (h8 : a8.IsWhole) (a9 : Memref sig .tc .vmem S1024x1024 .bf16) (h9 : a9.IsWhole) (a10 : Memref sig .tc .vmem S1024x1024 .bf16) (h10 : a10.IsWhole) (a11 : Memref sig .tc .vmem S1x1024 .f32) (h11 : a11.IsWhole)  (hc0 : ¬cond0_0 i) (hc1 : cond0_1 i) (hc2 : ¬cond0_2 i) (hc3 : ¬cond0_3 i) (x0 x1 x2 x3 : Vec Ideal S2048x1024 .f32) (x4 x5 x6 x7 : Vec Ideal S1x1024 .f32) :
    out0_B_10 c i a1 h1 a2 h2 a3 h3 a4 h4 a5 h5 a6 h6 a7 h7 a8 h8 a9 h9 a10 h10 a11 h11 hc0 hc1 hc2 hc3 x0 x1 x2 x3 x4 x5 x6 x7 = x5 := by
  unfold out0_B_10
  rw [View.read_writes_eq_canon _ _ _ (cover0_B_10 c i a1 h1 a2 h2 a3 h3 a4 h4 a5 h5 a6 h6 a7 h7 a8 h8 a9 h9 a10 h10 a11 h11 hc0 hc1 hc2 hc3 x0 x1 x2 x3 x4 x5 x6 x7)]
  unfold kernelRun0_B
  dsimp only
  rw [View.canon_unit_zero hz1]
  simp only [View.readAt_eq_ld, h6.read_unread, View.ld_unit_zero (S := S1x1024) hz1]
  unfold k0_pay6
  rw [shapeCast_self]

/-- Case C (grid point 2) leaves in the first output's buffer the upper 1024 rows of weight 2. -/
theorem upper_C (c : Dev nD) (i : grid0.Coords) (a1 : Memref sig .tc .vmem S2048x1024 .f32) (h1 : a1.IsWhole) (a2 : Memref sig .tc .vmem S2048x1024 .f32) (h2 : a2.IsWhole) (a3 : Memref sig .tc .vmem S2048x1024 .f32) (h3 : a3.IsWhole) (a4 : Memref sig .tc .vmem S2048x1024 .f32) (h4 : a4.IsWhole) (a5 : Memref sig .tc .vmem S1x1024 .f32) (h5 : a5.IsWhole) (a6 : Memref sig .tc .vmem S1x1024 .f32) (h6 : a6.IsWhole) (a7 : Memref sig .tc .vmem S1x1024 .f32) (h7 : a7.IsWhole) (a8 : Memref sig .tc .vmem S1x1024 .f32) (h8 : a8.IsWhole) (a9 : Memref sig .tc .vmem S1024x1024 .bf16) (h9 : a9.IsWhole) (a10 : Memref sig .tc .vmem S1024x1024 .bf16) (h10 : a10.IsWhole) (a11 : Memref sig .tc .vmem S1x1024 .f32) (h11 : a11.IsWhole)  (hc0 : ¬cond0_0 i) (hc1 : ¬cond0_1 i) (hc2 : cond0_2 i) (hc3 : ¬cond0_3 i) (x0 x1 x2 x3 : Vec Ideal S2048x1024 .f32) (x4 x5 x6 x7 : Vec Ideal S1x1024 .f32) (y : S1024x1024.Idx) :
    out0_C_8 c i a1 h1 a2 h2 a3 h3 a4 h4 a5 h5 a6 h6 a7 h7 a8 h8 a9 h9 a10 h10 a11 h11 hc0 hc1 hc2 hc3 x0 x1 x2 x3 x4 x5 x6 x7 y = x2 (ix2 (upper (y 0)) (y 1)) := by
  unfold out0_C_8
  rw [View.read_writes_eq_canon _ _ _ (cover0_C_8 c i a1 h1 a2 h2 a3 h3 a4 h4 a5 h5 a6 h6 a7 h7 a8 h8 a9 h9 a10 h10 a11 h11 hc0 hc1 hc2 hc3 x0 x1 x2 x3 x4 x5 x6 x7)]
  unfold kernelRun0_C
  dsimp only
  rw [View.canon_unit_zero hz]
  simp only [View.readAt_eq_ld, h3.read_unread]
  show x2 _ = x2 (ix2 (upper (y 0)) (y 1))
  refine congrArg x2 (funext fun a => Fin.ext ?_)
  match a with
  | ⟨0, _⟩ => show 0 + 1 * (y 0).val = (y 0).val; omega
  | ⟨1, _⟩ => show 0 + 1 * (y 1).val = (y 1).val; omega

/-- Case C leaves in the second output's buffer the lower 1024 rows of weight 2. -/
theorem lower_C (c : Dev nD) (i : grid0.Coords) (a1 : Memref sig .tc .vmem S2048x1024 .f32) (h1 : a1.IsWhole) (a2 : Memref sig .tc .vmem S2048x1024 .f32) (h2 : a2.IsWhole) (a3 : Memref sig .tc .vmem S2048x1024 .f32) (h3 : a3.IsWhole) (a4 : Memref sig .tc .vmem S2048x1024 .f32) (h4 : a4.IsWhole) (a5 : Memref sig .tc .vmem S1x1024 .f32) (h5 : a5.IsWhole) (a6 : Memref sig .tc .vmem S1x1024 .f32) (h6 : a6.IsWhole) (a7 : Memref sig .tc .vmem S1x1024 .f32) (h7 : a7.IsWhole) (a8 : Memref sig .tc .vmem S1x1024 .f32) (h8 : a8.IsWhole) (a9 : Memref sig .tc .vmem S1024x1024 .bf16) (h9 : a9.IsWhole) (a10 : Memref sig .tc .vmem S1024x1024 .bf16) (h10 : a10.IsWhole) (a11 : Memref sig .tc .vmem S1x1024 .f32) (h11 : a11.IsWhole)  (hc0 : ¬cond0_0 i) (hc1 : ¬cond0_1 i) (hc2 : cond0_2 i) (hc3 : ¬cond0_3 i) (x0 x1 x2 x3 : Vec Ideal S2048x1024 .f32) (x4 x5 x6 x7 : Vec Ideal S1x1024 .f32) (y : S1024x1024.Idx) :
    out0_C_9 c i a1 h1 a2 h2 a3 h3 a4 h4 a5 h5 a6 h6 a7 h7 a8 h8 a9 h9 a10 h10 a11 h11 hc0 hc1 hc2 hc3 x0 x1 x2 x3 x4 x5 x6 x7 y = x2 (ix2 (lower (y 0)) (y 1)) := by
  unfold out0_C_9
  rw [View.read_writes_eq_canon _ _ _ (cover0_C_9 c i a1 h1 a2 h2 a3 h3 a4 h4 a5 h5 a6 h6 a7 h7 a8 h8 a9 h9 a10 h10 a11 h11 hc0 hc1 hc2 hc3 x0 x1 x2 x3 x4 x5 x6 x7)]
  unfold kernelRun0_C
  dsimp only
  rw [View.canon_unit_zero hz]
  simp only [View.readAt_eq_ld, h3.read_unread]
  show x2 _ = x2 (ix2 (lower (y 0)) (y 1))
  refine congrArg x2 (funext fun a => Fin.ext ?_)
  match a with
  | ⟨0, _⟩ => show 1024 + 1 * (y 0).val = 1024 + (y 0).val; omega
  | ⟨1, _⟩ => show 0 + 1 * (y 1).val = (y 1).val; omega

/-- Case C leaves in the third output's buffer bias row 2. -/
theorem bias_C (c : Dev nD) (i : grid0.Coords) (a1 : Memref sig .tc .vmem S2048x1024 .f32) (h1 : a1.IsWhole) (a2 : Memref sig .tc .vmem S2048x1024 .f32) (h2 : a2.IsWhole) (a3 : Memref sig .tc .vmem S2048x1024 .f32) (h3 : a3.IsWhole) (a4 : Memref sig .tc .vmem S2048x1024 .f32) (h4 : a4.IsWhole) (a5 : Memref sig .tc .vmem S1x1024 .f32) (h5 : a5.IsWhole) (a6 : Memref sig .tc .vmem S1x1024 .f32) (h6 : a6.IsWhole) (a7 : Memref sig .tc .vmem S1x1024 .f32) (h7 : a7.IsWhole) (a8 : Memref sig .tc .vmem S1x1024 .f32) (h8 : a8.IsWhole) (a9 : Memref sig .tc .vmem S1024x1024 .bf16) (h9 : a9.IsWhole) (a10 : Memref sig .tc .vmem S1024x1024 .bf16) (h10 : a10.IsWhole) (a11 : Memref sig .tc .vmem S1x1024 .f32) (h11 : a11.IsWhole)  (hc0 : ¬cond0_0 i) (hc1 : ¬cond0_1 i) (hc2 : cond0_2 i) (hc3 : ¬cond0_3 i) (x0 x1 x2 x3 : Vec Ideal S2048x1024 .f32) (x4 x5 x6 x7 : Vec Ideal S1x1024 .f32) :
    out0_C_10 c i a1 h1 a2 h2 a3 h3 a4 h4 a5 h5 a6 h6 a7 h7 a8 h8 a9 h9 a10 h10 a11 h11 hc0 hc1 hc2 hc3 x0 x1 x2 x3 x4 x5 x6 x7 = x6 := by
  unfold out0_C_10
  rw [View.read_writes_eq_canon _ _ _ (cover0_C_10 c i a1 h1 a2 h2 a3 h3 a4 h4 a5 h5 a6 h6 a7 h7 a8 h8 a9 h9 a10 h10 a11 h11 hc0 hc1 hc2 hc3 x0 x1 x2 x3 x4 x5 x6 x7)]
  unfold kernelRun0_C
  dsimp only
  rw [View.canon_unit_zero hz1]
  simp only [View.readAt_eq_ld, h7.read_unread, View.ld_unit_zero (S := S1x1024) hz1]
  unfold k0_pay9
  rw [shapeCast_self]

/-- Case D (grid point 3) leaves in the first output's buffer the upper 1024 rows of weight 3. -/
theorem upper_D (c : Dev nD) (i : grid0.Coords) (a1 : Memref sig .tc .vmem S2048x1024 .f32) (h1 : a1.IsWhole) (a2 : Memref sig .tc .vmem S2048x1024 .f32) (h2 : a2.IsWhole) (a3 : Memref sig .tc .vmem S2048x1024 .f32) (h3 : a3.IsWhole) (a4 : Memref sig .tc .vmem S2048x1024 .f32) (h4 : a4.IsWhole) (a5 : Memref sig .tc .vmem S1x1024 .f32) (h5 : a5.IsWhole) (a6 : Memref sig .tc .vmem S1x1024 .f32) (h6 : a6.IsWhole) (a7 : Memref sig .tc .vmem S1x1024 .f32) (h7 : a7.IsWhole) (a8 : Memref sig .tc .vmem S1x1024 .f32) (h8 : a8.IsWhole) (a9 : Memref sig .tc .vmem S1024x1024 .bf16) (h9 : a9.IsWhole) (a10 : Memref sig .tc .vmem S1024x1024 .bf16) (h10 : a10.IsWhole) (a11 : Memref sig .tc .vmem S1x1024 .f32) (h11 : a11.IsWhole)  (hc0 : ¬cond0_0 i) (hc1 : ¬cond0_1 i) (hc2 : ¬cond0_2 i) (hc3 : cond0_3 i) (x0 x1 x2 x3 : Vec Ideal S2048x1024 .f32) (x4 x5 x6 x7 : Vec Ideal S1x1024 .f32) (y : S1024x1024.Idx) :
    out0_D_8 c i a1 h1 a2 h2 a3 h3 a4 h4 a5 h5 a6 h6 a7 h7 a8 h8 a9 h9 a10 h10 a11 h11 hc0 hc1 hc2 hc3 x0 x1 x2 x3 x4 x5 x6 x7 y = x3 (ix2 (upper (y 0)) (y 1)) := by
  unfold out0_D_8
  rw [View.read_writes_eq_canon _ _ _ (cover0_D_8 c i a1 h1 a2 h2 a3 h3 a4 h4 a5 h5 a6 h6 a7 h7 a8 h8 a9 h9 a10 h10 a11 h11 hc0 hc1 hc2 hc3 x0 x1 x2 x3 x4 x5 x6 x7)]
  unfold kernelRun0_D
  dsimp only
  rw [View.canon_unit_zero hz]
  simp only [View.readAt_eq_ld, h4.read_unread]
  show x3 _ = x3 (ix2 (upper (y 0)) (y 1))
  refine congrArg x3 (funext fun a => Fin.ext ?_)
  match a with
  | ⟨0, _⟩ => show 0 + 1 * (y 0).val = (y 0).val; omega
  | ⟨1, _⟩ => show 0 + 1 * (y 1).val = (y 1).val; omega

/-- Case D leaves in the second output's buffer the lower 1024 rows of weight 3. -/
theorem lower_D (c : Dev nD) (i : grid0.Coords) (a1 : Memref sig .tc .vmem S2048x1024 .f32) (h1 : a1.IsWhole) (a2 : Memref sig .tc .vmem S2048x1024 .f32) (h2 : a2.IsWhole) (a3 : Memref sig .tc .vmem S2048x1024 .f32) (h3 : a3.IsWhole) (a4 : Memref sig .tc .vmem S2048x1024 .f32) (h4 : a4.IsWhole) (a5 : Memref sig .tc .vmem S1x1024 .f32) (h5 : a5.IsWhole) (a6 : Memref sig .tc .vmem S1x1024 .f32) (h6 : a6.IsWhole) (a7 : Memref sig .tc .vmem S1x1024 .f32) (h7 : a7.IsWhole) (a8 : Memref sig .tc .vmem S1x1024 .f32) (h8 : a8.IsWhole) (a9 : Memref sig .tc .vmem S1024x1024 .bf16) (h9 : a9.IsWhole) (a10 : Memref sig .tc .vmem S1024x1024 .bf16) (h10 : a10.IsWhole) (a11 : Memref sig .tc .vmem S1x1024 .f32) (h11 : a11.IsWhole)  (hc0 : ¬cond0_0 i) (hc1 : ¬cond0_1 i) (hc2 : ¬cond0_2 i) (hc3 : cond0_3 i) (x0 x1 x2 x3 : Vec Ideal S2048x1024 .f32) (x4 x5 x6 x7 : Vec Ideal S1x1024 .f32) (y : S1024x1024.Idx) :
    out0_D_9 c i a1 h1 a2 h2 a3 h3 a4 h4 a5 h5 a6 h6 a7 h7 a8 h8 a9 h9 a10 h10 a11 h11 hc0 hc1 hc2 hc3 x0 x1 x2 x3 x4 x5 x6 x7 y = x3 (ix2 (lower (y 0)) (y 1)) := by
  unfold out0_D_9
  rw [View.read_writes_eq_canon _ _ _ (cover0_D_9 c i a1 h1 a2 h2 a3 h3 a4 h4 a5 h5 a6 h6 a7 h7 a8 h8 a9 h9 a10 h10 a11 h11 hc0 hc1 hc2 hc3 x0 x1 x2 x3 x4 x5 x6 x7)]
  unfold kernelRun0_D
  dsimp only
  rw [View.canon_unit_zero hz]
  simp only [View.readAt_eq_ld, h4.read_unread]
  show x3 _ = x3 (ix2 (lower (y 0)) (y 1))
  refine congrArg x3 (funext fun a => Fin.ext ?_)
  match a with
  | ⟨0, _⟩ => show 1024 + 1 * (y 0).val = 1024 + (y 0).val; omega
  | ⟨1, _⟩ => show 0 + 1 * (y 1).val = (y 1).val; omega

/-- Case D leaves in the third output's buffer bias row 3. -/
theorem bias_D (c : Dev nD) (i : grid0.Coords) (a1 : Memref sig .tc .vmem S2048x1024 .f32) (h1 : a1.IsWhole) (a2 : Memref sig .tc .vmem S2048x1024 .f32) (h2 : a2.IsWhole) (a3 : Memref sig .tc .vmem S2048x1024 .f32) (h3 : a3.IsWhole) (a4 : Memref sig .tc .vmem S2048x1024 .f32) (h4 : a4.IsWhole) (a5 : Memref sig .tc .vmem S1x1024 .f32) (h5 : a5.IsWhole) (a6 : Memref sig .tc .vmem S1x1024 .f32) (h6 : a6.IsWhole) (a7 : Memref sig .tc .vmem S1x1024 .f32) (h7 : a7.IsWhole) (a8 : Memref sig .tc .vmem S1x1024 .f32) (h8 : a8.IsWhole) (a9 : Memref sig .tc .vmem S1024x1024 .bf16) (h9 : a9.IsWhole) (a10 : Memref sig .tc .vmem S1024x1024 .bf16) (h10 : a10.IsWhole) (a11 : Memref sig .tc .vmem S1x1024 .f32) (h11 : a11.IsWhole)  (hc0 : ¬cond0_0 i) (hc1 : ¬cond0_1 i) (hc2 : ¬cond0_2 i) (hc3 : cond0_3 i) (x0 x1 x2 x3 : Vec Ideal S2048x1024 .f32) (x4 x5 x6 x7 : Vec Ideal S1x1024 .f32) :
    out0_D_10 c i a1 h1 a2 h2 a3 h3 a4 h4 a5 h5 a6 h6 a7 h7 a8 h8 a9 h9 a10 h10 a11 h11 hc0 hc1 hc2 hc3 x0 x1 x2 x3 x4 x5 x6 x7 = x7 := by
  unfold out0_D_10
  rw [View.read_writes_eq_canon _ _ _ (cover0_D_10 c i a1 h1 a2 h2 a3 h3 a4 h4 a5 h5 a6 h6 a7 h7 a8 h8 a9 h9 a10 h10 a11 h11 hc0 hc1 hc2 hc3 x0 x1 x2 x3 x4 x5 x6 x7)]
  unfold kernelRun0_D
  dsimp only
  rw [View.canon_unit_zero hz1]
  simp only [View.readAt_eq_ld, h8.read_unread, View.ld_unit_zero (S := S1x1024) hz1]
  unfold k0_pay12
  rw [shapeCast_self]

end Cert.KernelIdeal.PrepRegion

end
-- ==== Proof.PrepRegion.lean ====
/-
  The first region: the gate-major layout.

  Grid point `g` of 4 takes exactly one of the body's four branches: it reads weight `g` (2048 × 1024) whole and
  bias row `g` (1 × 1024), and writes the weight's upper 1024 rows into column block `g` of the first output
  (1024 × 4096), its lower 1024 rows into column block `g` of the second, and the bias row into column block `g` of the
  third (1 × 4096); the narrowing of the float format is the identity on the extended reals.  The four column
  blocks tile the 4096 columns, so the three outputs end holding the four weights' upper halves, lower halves and
  the four bias rows side by side.
-/
import proofs.«112480_j55044300866146_2_alg».proof.Proof.Gen.KernelIdeal.Frame
import proofs.«112480_j55044300866146_2_alg».proof.Proof.PrepPieces
import proofs.«112480_j55044300866146_2_alg».proof.Proof.FusedSpec
import Idealize.ShloMosaic.Lib.Pipeline.Value
import Idealize.ShloMosaic.Lib.Tactic

set_option maxRecDepth 16384

noncomputable section

namespace Cert.KernelIdeal.PrepRegion

open Cert.KernelIdeal Cert.KernelIdeal.Gen Cert.LstmCell
open Idealize.ShloMosaic Idealize.ShloMosaic.ValueIdx Idealize.ShloMosaic.TcCoe Idealize.SL.Sem
open Idealize.ShloMosaic.Pipeline (Dat)

/-! ## The column blocks of the layout -/

theorem pick_first {α : Type} (f i u o : α) (col : Fin 4096) (h0 : 0 ≤ col.val) (h : col.val < 1024) : pick f i u o col = f := by
  unfold pick; rw [if_pos h]
theorem pick_second {α : Type} (f i u o : α) (col : Fin 4096) (h0 : 1024 ≤ col.val) (h : col.val < 2048) : pick f i u o col = i := by
  unfold pick; rw [if_neg (by omega), if_pos h]
theorem pick_third {α : Type} (f i u o : α) (col : Fin 4096) (h0 : 2048 ≤ col.val) (h : col.val < 3072) : pick f i u o col = u := by
  unfold pick; rw [if_neg (by omega), if_neg (by omega), if_pos h]
theorem pick_fourth {α : Type} (f i u o : α) (col : Fin 4096) (h0 : 3072 ≤ col.val) (h : col.val < 4096) : pick f i u o col = o := by
  unfold pick; rw [if_neg (by omega), if_neg (by omega), if_neg (by omega)]

/-- The upper halves side by side, at a column that reads gate `W` at `q`. -/
theorem wx_at (Wf Wi Wu Wo W : (⟨2, ![2048, 1024]⟩ : Shape).Idx → EReal) (k : Fin 1024) (col : Fin 4096) (q : Fin 1024)
    (hq : col.val % 1024 = q.val) (hW : pick Wf Wi Wu Wo col = W) :
    fusedWx Wf Wi Wu Wo (ix2 k col) = W (ix2 (upper k) q) := by
  have e : inGate col = q := Fin.ext hq
  show pick Wf Wi Wu Wo col (ix2 (upper k) (inGate col)) = _
  rw [hW, e]
/-- The lower halves likewise. -/
theorem wh_at (Wf Wi Wu Wo W : (⟨2, ![2048, 1024]⟩ : Shape).Idx → EReal) (k : Fin 1024) (col : Fin 4096) (q : Fin 1024)
    (hq : col.val % 1024 = q.val) (hW : pick Wf Wi Wu Wo col = W) :
    fusedWh Wf Wi Wu Wo (ix2 k col) = W (ix2 (lower k) q) := by
  have e : inGate col = q := Fin.ext hq
  show pick Wf Wi Wu Wo col (ix2 (lower k) (inGate col)) = _
  rw [hW, e]

/-- Four 1 × 1024 rows side by side as one 1 × 4096 row. -/
def fusedRow (r0 r1 r2 r3 : (⟨2, ![1, 1024]⟩ : Shape).Idx → EReal) : (⟨2, ![1, 4096]⟩ : Shape).Idx → EReal :=
  fun i => pick r0 r1 r2 r3 (i 1) (ix2 (0 : Fin 1) (inGate (i 1)))

theorem row_at (r0 r1 r2 r3 R : (⟨2, ![1, 1024]⟩ : Shape).Idx → EReal) (col : Fin 4096) (u : Fin 1) (q : Fin 1024)
    (hq : col.val % 1024 = q.val) (hR : pick r0 r1 r2 r3 col = R) :
    fusedRow r0 r1 r2 r3 (ix2 u col) = R (ix2 u q) := by
  have e : inGate col = q := Fin.ext hq
  have hu : u = (0 : Fin 1) := Fin.ext (by have := u.isLt; omega)
  subst hu
  show pick r0 r1 r2 r3 col (ix2 (0 : Fin 1) (inGate col)) = _
  rw [hR, e]

/-- Column `1024·t + q` of the 4096 columns. -/
abbrev colOf (t : Fin cfg0.N) (q : Fin 1024) : Fin 4096 :=
  ⟨1024 * t.val + q.val, by have := lt_of_lt_of_eq t.isLt (show cfg0.N = 4 from N_0); have := q.isLt; omega⟩

/-! ## The printed index maps, decided over the grid -/
theorem idx_in0 : ∀ t : Fin cfg0.N, win0_0.index t (0 : Fin 2) = 0 ∧ win0_0.index t (1 : Fin 2) = 0 :=
  (by decide +kernel : ∀ t : Fin grid0.N, _)
theorem idx_in1 : ∀ t : Fin cfg0.N, win0_1.index t (0 : Fin 2) = 0 ∧ win0_1.index t (1 : Fin 2) = 0 :=
  (by decide +kernel : ∀ t : Fin grid0.N, _)
theorem idx_in2 : ∀ t : Fin cfg0.N, win0_2.index t (0 : Fin 2) = 0 ∧ win0_2.index t (1 : Fin 2) = 0 :=
  (by decide +kernel : ∀ t : Fin grid0.N, _)
theorem idx_in3 : ∀ t : Fin cfg0.N, win0_3.index t (0 : Fin 2) = 0 ∧ win0_3.index t (1 : Fin 2) = 0 :=
  (by decide +kernel : ∀ t : Fin grid0.N, _)
theorem idx_in4 : ∀ t : Fin cfg0.N, win0_4.index t (0 : Fin 2) = 0 ∧ win0_4.index t (1 : Fin 2) = 0 :=
  (by decide +kernel : ∀ t : Fin grid0.N, _)
theorem idx_in5 : ∀ t : Fin cfg0.N, win0_5.index t (0 : Fin 2) = 0 ∧ win0_5.index t (1 : Fin 2) = 0 :=
  (by decide +kernel : ∀ t : Fin grid0.N, _)
theorem idx_in6 : ∀ t : Fin cfg0.N, win0_6.index t (0 : Fin 2) = 0 ∧ win0_6.index t (1 : Fin 2) = 0 :=
  (by decide +kernel : ∀ t : Fin grid0.N, _)
theorem idx_in7 : ∀ t : Fin cfg0.N, win0_7.index t (0 : Fin 2) = 0 ∧ win0_7.index t (1 : Fin 2) = 0 :=
  (by decide +kernel : ∀ t : Fin grid0.N, _)
theorem idx_out8 : ∀ t : Fin cfg0.N, win0_8.index t (0 : Fin 2) = 0 ∧ win0_8.index t (1 : Fin 2) = t.val :=
  (by decide +kernel : ∀ t : Fin grid0.N, _)
theorem idx_out9 : ∀ t : Fin cfg0.N, win0_9.index t (0 : Fin 2) = 0 ∧ win0_9.index t (1 : Fin 2) = t.val :=
  (by decide +kernel : ∀ t : Fin grid0.N, _)
theorem idx_out10 : ∀ t : Fin cfg0.N, win0_10.index t (0 : Fin 2) = 0 ∧ win0_10.index t (1 : Fin 2) = t.val :=
  (by decide +kernel : ∀ t : Fin grid0.N, _)

section
variable (V : (c : Dev nD) → (b : Ref sig .tc) → Buf (Elt Ideal) ((c : Thread nD τ).loc b))

/-- Input window 0's block at every point is its whole array. -/
theorem whole0 (c : Dev nD) (t : Fin cfg0.N) : (iblk0 V c 0 t : Vec Ideal S2048x1024 .f32) = V c main_arg4 := by
  obtain ⟨e0, e1⟩ := idx_in0 t
  funext y
  show V c main_arg4 (((cfg0.win 0).blk t).view.emb y) = V c main_arg4 y
  refine congrArg (V c main_arg4) (funext fun a => Fin.ext ?_)
  match a with
  | ⟨0, _⟩ => show win0_0.index t (0 : Fin 2) * 2048 + 1 * (y 0).val = (y 0).val; rw [e0]; omega
  | ⟨1, _⟩ => show win0_0.index t (1 : Fin 2) * 1024 + 1 * (y 1).val = (y 1).val; rw [e1]; omega

/-- Input window 1's block at every point is its whole array. -/
theorem whole1 (c : Dev nD) (t : Fin cfg0.N) : (iblk0 V c 1 t : Vec Ideal S2048x1024 .f32) = V c main_arg6 := by
  obtain ⟨e0, e1⟩ := idx_in1 t
  funext y
  show V c main_arg6 (((cfg0.win 1).blk t).view.emb y) = V c main_arg6 y
  refine congrArg (V c main_arg6) (funext fun a => Fin.ext ?_)
  match a with
  | ⟨0, _⟩ => show win0_1.index t (0 : Fin 2) * 2048 + 1 * (y 0).val = (y 0).val; rw [e0]; omega
  | ⟨1, _⟩ => show win0_1.index t (1 : Fin 2) * 1024 + 1 * (y 1).val = (y 1).val; rw [e1]; omega

/-- Input window 2's block at every point is its whole array. -/
theorem whole2 (c : Dev nD) (t : Fin cfg0.N) : (iblk0 V c 2 t : Vec Ideal S2048x1024 .f32) = V c main_arg8 := by
  obtain ⟨e0, e1⟩ := idx_in2 t
  funext y
  show V c main_arg8 (((cfg0.win 2).blk t).view.emb y) = V c main_arg8 y
  refine congrArg (V c main_arg8) (funext fun a => Fin.ext ?_)
  match a with
  | ⟨0, _⟩ => show win0_2.index t (0 : Fin 2) * 2048 + 1 * (y 0).val = (y 0).val; rw [e0]; omega
  | ⟨1, _⟩ => show win0_2.index t (1 : Fin 2) * 1024 + 1 * (y 1).val = (y 1).val; rw [e1]; omega

/-- Input window 3's block at every point is its whole array. -/
theorem whole3 (c : Dev nD) (t : Fin cfg0.N) : (iblk0 V c 3 t : Vec Ideal S2048x1024 .f32) = V c main_arg10 := by
  obtain ⟨e0, e1⟩ := idx_in3 t
  funext y
  show V c main_arg10 (((cfg0.win 3).blk t).view.emb y) = V c main_arg10 y
  refine congrArg (V c main_arg10) (funext fun a => Fin.ext ?_)
  match a with
  | ⟨0, _⟩ => show win0_3.index t (0 : Fin 2) * 2048 + 1 * (y 0).val = (y 0).val; rw [e0]; omega
  | ⟨1, _⟩ => show win0_3.index t (1 : Fin 2) * 1024 + 1 * (y 1).val = (y 1).val; rw [e1]; omega

/-- Input window 4's block at every point is its whole array. -/
theorem whole4 (c : Dev nD) (t : Fin cfg0.N) : (iblk0 V c 4 t : Vec Ideal S1x1024 .f32) = V c main_v0 := by
  obtain ⟨e0, e1⟩ := idx_in4 t
  funext y
  show V c main_v0 (((cfg0.win 4).blk t).view.emb y) = V c main_v0 y
  refine congrArg (V c main_v0) (funext fun a => Fin.ext ?_)
  match a with
  | ⟨0, _⟩ => show win0_4.index t (0 : Fin 2) * 1 + 1 * (y 0).val = (y 0).val; rw [e0]; omega
  | ⟨1, _⟩ => show win0_4.index t (1 : Fin 2) * 1024 + 1 * (y 1).val = (y 1).val; rw [e1]; omega

/-- Input window 5's block at every point is its whole array. -/
theorem whole5 (c : Dev nD) (t : Fin cfg0.N) : (iblk0 V c 5 t : Vec Ideal S1x1024 .f32) = V c main_v1 := by
  obtain ⟨e0, e1⟩ := idx_in5 t
  funext y
  show V c main_v1 (((cfg0.win 5).blk t).view.emb y) = V c main_v1 y
  refine congrArg (V c main_v1) (funext fun a => Fin.ext ?_)
  match a with
  | ⟨0, _⟩ => show win0_5.index t (0 : Fin 2) * 1 + 1 * (y 0).val = (y 0).val; rw [e0]; omega
  | ⟨1, _⟩ => show win0_5.index t (1 : Fin 2) * 1024 + 1 * (y 1).val = (y 1).val; rw [e1]; omega

/-- Input window 6's block at every point is its whole array. -/
theorem whole6 (c : Dev nD) (t : Fin cfg0.N) : (iblk0 V c 6 t : Vec Ideal S1x1024 .f32) = V c main_v2 := by
  obtain ⟨e0, e1⟩ := idx_in6 t
  funext y
  show V c main_v2 (((cfg0.win 6).blk t).view.emb y) = V c main_v2 y
  refine congrArg (V c main_v2) (funext fun a => Fin.ext ?_)
  match a with
  | ⟨0, _⟩ => show win0_6.index t (0 : Fin 2) * 1 + 1 * (y 0).val = (y 0).val; rw [e0]; omega
  | ⟨1, _⟩ => show win0_6.index t (1 : Fin 2) * 1024 + 1 * (y 1).val = (y 1).val; rw [e1]; omega

/-- Input window 7's block at every point is its whole array. -/
theorem whole7 (c : Dev nD) (t : Fin cfg0.N) : (iblk0 V c 7 t : Vec Ideal S1x1024 .f32) = V c main_v3 := by
  obtain ⟨e0, e1⟩ := idx_in7 t
  funext y
  show V c main_v3 (((cfg0.win 7).blk t).view.emb y) = V c main_v3 y
  refine congrArg (V c main_v3) (funext fun a => Fin.ext ?_)
  match a with
  | ⟨0, _⟩ => show win0_7.index t (0 : Fin 2) * 1 + 1 * (y 0).val = (y 0).val; rw [e0]; omega
  | ⟨1, _⟩ => show win0_7.index t (1 : Fin 2) * 1024 + 1 * (y 1).val = (y 1).val; rw [e1]; omega

/-- Where point `t`'s block of output window 8 sits in its array: column block `t`. -/
theorem embW8 (t : Fin cfg0.N) (j : S1024x1024.Idx) :
    ((cfg0.win 8).blk t).view.emb j = ix2 (j 0) (colOf t (j 1)) := by
  obtain ⟨e0, e1⟩ := idx_out8 t
  funext a
  apply Fin.ext
  match a with
  | ⟨0, _⟩ => show win0_8.index t (0 : Fin 2) * 1024 + 1 * (j 0).val = (j 0).val; rw [e0]; omega
  | ⟨1, _⟩ => show win0_8.index t (1 : Fin 2) * 1024 + 1 * (j 1).val = 1024 * t.val + (j 1).val; rw [e1]; omega

/-- The window's blocks are whole: cutting a block's buffer to the block is the identity. -/
theorem cut8 (t : Fin cfg0.N) (v : Vec Ideal S1024x1024 .bf16) : (cfg0.win 8).cut (grid0.coords t) v = v := rfl

/-- What point `t` writes back through output window 8 is its block of the gate-major array. -/
theorem flushed8 (c : Dev nD) (t : Fin cfg0.N) :
    (dat0 V c).flushed 8 t = ((cfg0.win 8).blk t).view.read (Elt Ideal) (fusedWx (V c main_arg4) (V c main_arg6) (V c main_arg8) (V c main_arg10)) := by
  have ht : t.val < 4 := lt_of_lt_of_eq t.isLt (show cfg0.N = 4 from N_0)
  show (cfg0.win 8).cut (grid0.coords t) ((dat0 V c).after 8 t) = _
  rw [after0_8]
  refine (cut8 t _).trans ?_
  rcases (show t.val = 0 ∨ t.val = 1 ∨ t.val = 2 ∨ t.val = 3 by omega) with hv | hv | hv | hv
  · -- grid point 0: weight 0
    have h0 : t.val % 4 = 0 := by omega
    have h1 : ¬ t.val % 4 = 1 := by omega
    have h2 : ¬ t.val % 4 = 2 := by omega
    have h3 : ¬ t.val % 4 = 3 := by omega
    rw [outsAt0_A V c t h0 h1 h2 h3]
    dsimp only
    funext j
    have hj1 : (j 1).val < 1024 := (j 1).isLt
    refine (upper_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (fun h => h1 ((hcond0_1 t).mp h)) (fun h => h2 ((hcond0_2 t).mp h)) (fun h => h3 ((hcond0_3 t).mp h)) (iblk0 V c 0 t) (iblk0 V c 1 t) (iblk0 V c 2 t) (iblk0 V c 3 t) (iblk0 V c 4 t) (iblk0 V c 5 t) (iblk0 V c 6 t) (iblk0 V c 7 t) j).trans ?_
    rw [whole0 V c t]
    show _ = fusedWx (V c main_arg4) (V c main_arg6) (V c main_arg8) (V c main_arg10) (((cfg0.win 8).blk t).view.emb j)
    rw [embW8 t j]
    exact (wx_at _ _ _ _ _ (j 0) (colOf t (j 1)) (j 1) (by show (1024 * t.val + (j 1).val) % 1024 = (j 1).val; omega)
      (pick_first _ _ _ _ _ (by show 0 ≤ 1024 * t.val + (j 1).val; omega) (by show 1024 * t.val + (j 1).val < 1024; omega))).symm
  · -- grid point 1: weight 1
    have h1 : t.val % 4 = 1 := by omega
    have h0 : ¬ t.val % 4 = 0 := by omega
    have h2 : ¬ t.val % 4 = 2 := by omega
    have h3 : ¬ t.val % 4 = 3 := by omega
    rw [outsAt0_B V c t h0 h1 h2 h3]
    dsimp only
    funext j
    have hj1 : (j 1).val < 1024 := (j 1).isLt
    refine (upper_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) ((hcond0_1 t).mpr h1) (fun h => h2 ((hcond0_2 t).mp h)) (fun h => h3 ((hcond0_3 t).mp h)) (iblk0 V c 0 t) (iblk0 V c 1 t) (iblk0 V c 2 t) (iblk0 V c 3 t) (iblk0 V c 4 t) (iblk0 V c 5 t) (iblk0 V c 6 t) (iblk0 V c 7 t) j).trans ?_
    rw [whole1 V c t]
    show _ = fusedWx (V c main_arg4) (V c main_arg6) (V c main_arg8) (V c main_arg10) (((cfg0.win 8).blk t).view.emb j)
    rw [embW8 t j]
    exact (wx_at _ _ _ _ _ (j 0) (colOf t (j 1)) (j 1) (by show (1024 * t.val + (j 1).val) % 1024 = (j 1).val; omega)
      (pick_second _ _ _ _ _ (by show 1024 ≤ 1024 * t.val + (j 1).val; omega) (by show 1024 * t.val + (j 1).val < 2048; omega))).symm
  · -- grid point 2: weight 2
    have h2 : t.val % 4 = 2 := by omega
    have h0 : ¬ t.val % 4 = 0 := by omega
    have h1 : ¬ t.val % 4 = 1 := by omega
    have h3 : ¬ t.val % 4 = 3 := by omega
    rw [outsAt0_C V c t h0 h1 h2 h3]
    dsimp only
    funext j
    have hj1 : (j 1).val < 1024 := (j 1).isLt
    refine (upper_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (fun h => h1 ((hcond0_1 t).mp h)) ((hcond0_2 t).mpr h2) (fun h => h3 ((hcond0_3 t).mp h)) (iblk0 V c 0 t) (iblk0 V c 1 t) (iblk0 V c 2 t) (iblk0 V c 3 t) (iblk0 V c 4 t) (iblk0 V c 5 t) (iblk0 V c 6 t) (iblk0 V c 7 t) j).trans ?_
    rw [whole2 V c t]
    show _ = fusedWx (V c main_arg4) (V c main_arg6) (V c main_arg8) (V c main_arg10) (((cfg0.win 8).blk t).view.emb j)
    rw [embW8 t j]
    exact (wx_at _ _ _ _ _ (j 0) (colOf t (j 1)) (j 1) (by show (1024 * t.val + (j 1).val) % 1024 = (j 1).val; omega)
      (pick_third _ _ _ _ _ (by show 2048 ≤ 1024 * t.val + (j 1).val; omega) (by show 1024 * t.val + (j 1).val < 3072; omega))).symm
  · -- grid point 3: weight 3
    have h3 : t.val % 4 = 3 := by omega
    have h0 : ¬ t.val % 4 = 0 := by omega
    have h1 : ¬ t.val % 4 = 1 := by omega
    have h2 : ¬ t.val % 4 = 2 := by omega
    rw [outsAt0_D V c t h0 h1 h2 h3]
    dsimp only
    funext j
    have hj1 : (j 1).val < 1024 := (j 1).isLt
    refine (upper_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (fun h => h1 ((hcond0_1 t).mp h)) (fun h => h2 ((hcond0_2 t).mp h)) ((hcond0_3 t).mpr h3) (iblk0 V c 0 t) (iblk0 V c 1 t) (iblk0 V c 2 t) (iblk0 V c 3 t) (iblk0 V c 4 t) (iblk0 V c 5 t) (iblk0 V c 6 t) (iblk0 V c 7 t) j).trans ?_
    rw [whole3 V c t]
    show _ = fusedWx (V c main_arg4) (V c main_arg6) (V c main_arg8) (V c main_arg10) (((cfg0.win 8).blk t).view.emb j)
    rw [embW8 t j]
    exact (wx_at _ _ _ _ _ (j 0) (colOf t (j 1)) (j 1) (by show (1024 * t.val + (j 1).val) % 1024 = (j 1).val; omega)
      (pick_fourth _ _ _ _ _ (by show 3072 ≤ 1024 * t.val + (j 1).val; omega) (by show 1024 * t.val + (j 1).val < 4096; omega))).symm

theorem mem_blk8 (t : Fin cfg0.N) (i : S1024x4096.Idx) :
    i ∈ ((cfg0.win 8).blk t).view.set ↔ ∀ a : Fin 2, win0_8.index t a * S1024x1024.size a ≤ (i a).val ∧ (i a).val < win0_8.index t a * S1024x1024.size a + S1024x1024.size a := by
  show i ∈ ((View.whole main_v4_0).slice (win0_8.rect t)).set ↔ _
  rw [View.set_slice_whole, Rect.mem_set_unit]
  exact Iff.rfl

/-- Every column of the array is in the block of the point `column / 1024`. -/
theorem cover8 (i : S1024x4096.Idx) : ∃ t : Fin cfg0.N, (cfg0.win 8).flush t = true ∧ i ∈ ((cfg0.win 8).blk t).view.set := by
  have hi0 : (i 0).val < 1024 := (i 0).isLt
  have hi1 : (i 1).val < 4096 := (i 1).isLt
  have hN : cfg0.N = 4 := N_0
  refine ⟨⟨(i 1).val / 1024, by rw [hN]; omega⟩, flush0_8 _, ?_⟩
  obtain ⟨e0, e1⟩ := idx_out8 ⟨(i 1).val / 1024, by rw [hN]; omega⟩
  rw [mem_blk8]
  intro a
  match a with
  | ⟨0, _⟩ =>
    show win0_8.index ⟨(i 1).val / 1024, _⟩ (0 : Fin 2) * 1024 ≤ (i 0).val ∧ (i 0).val < win0_8.index ⟨(i 1).val / 1024, _⟩ (0 : Fin 2) * 1024 + 1024
    rw [e0]; omega
  | ⟨1, _⟩ =>
    show win0_8.index ⟨(i 1).val / 1024, _⟩ (1 : Fin 2) * 1024 ≤ (i 1).val ∧ (i 1).val < win0_8.index ⟨(i 1).val / 1024, _⟩ (1 : Fin 2) * 1024 + 1024
    rw [e1]; show (i 1).val / 1024 * 1024 ≤ (i 1).val ∧ (i 1).val < (i 1).val / 1024 * 1024 + 1024; omega

/-- The array of output window 8 after the region. -/
theorem final8 (c : Dev nD) : (dat0 V c).arrAt 8 cfg0.N = fusedWx (V c main_arg4) (V c main_arg6) (V c main_arg8) (V c main_arg10) :=
  (dat0 V c).arrAt_eq_of_cover 8 _ (fun t _ => flushed8 V c t) cover8

/-- Where point `t`'s block of output window 9 sits in its array: column block `t`. -/
theorem embW9 (t : Fin cfg0.N) (j : S1024x1024.Idx) :
    ((cfg0.win 9).blk t).view.emb j = ix2 (j 0) (colOf t (j 1)) := by
  obtain ⟨e0, e1⟩ := idx_out9 t
  funext a
  apply Fin.ext
  match a with
  | ⟨0, _⟩ => show win0_9.index t (0 : Fin 2) * 1024 + 1 * (j 0).val = (j 0).val; rw [e0]; omega
  | ⟨1, _⟩ => show win0_9.index t (1 : Fin 2) * 1024 + 1 * (j 1).val = 1024 * t.val + (j 1).val; rw [e1]; omega

/-- The window's blocks are whole: cutting a block's buffer to the block is the identity. -/
theorem cut9 (t : Fin cfg0.N) (v : Vec Ideal S1024x1024 .bf16) : (cfg0.win 9).cut (grid0.coords t) v = v := rfl

/-- What point `t` writes back through output window 9 is its block of the gate-major array. -/
theorem flushed9 (c : Dev nD) (t : Fin cfg0.N) :
    (dat0 V c).flushed 9 t = ((cfg0.win 9).blk t).view.read (Elt Ideal) (fusedWh (V c main_arg4) (V c main_arg6) (V c main_arg8) (V c main_arg10)) := by
  have ht : t.val < 4 := lt_of_lt_of_eq t.isLt (show cfg0.N = 4 from N_0)
  show (cfg0.win 9).cut (grid0.coords t) ((dat0 V c).after 9 t) = _
  rw [after0_9]
  refine (cut9 t _).trans ?_
  rcases (show t.val = 0 ∨ t.val = 1 ∨ t.val = 2 ∨ t.val = 3 by omega) with hv | hv | hv | hv
  · -- grid point 0: weight 0
    have h0 : t.val % 4 = 0 := by omega
    have h1 : ¬ t.val % 4 = 1 := by omega
    have h2 : ¬ t.val % 4 = 2 := by omega
    have h3 : ¬ t.val % 4 = 3 := by omega
    rw [outsAt0_A V c t h0 h1 h2 h3]
    dsimp only
    funext j
    have hj1 : (j 1).val < 1024 := (j 1).isLt
    refine (lower_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (fun h => h1 ((hcond0_1 t).mp h)) (fun h => h2 ((hcond0_2 t).mp h)) (fun h => h3 ((hcond0_3 t).mp h)) (iblk0 V c 0 t) (iblk0 V c 1 t) (iblk0 V c 2 t) (iblk0 V c 3 t) (iblk0 V c 4 t) (iblk0 V c 5 t) (iblk0 V c 6 t) (iblk0 V c 7 t) j).trans ?_
    rw [whole0 V c t]
    show _ = fusedWh (V c main_arg4) (V c main_arg6) (V c main_arg8) (V c main_arg10) (((cfg0.win 9).blk t).view.emb j)
    rw [embW9 t j]
    exact (wh_at _ _ _ _ _ (j 0) (colOf t (j 1)) (j 1) (by show (1024 * t.val + (j 1).val) % 1024 = (j 1).val; omega)
      (pick_first _ _ _ _ _ (by show 0 ≤ 1024 * t.val + (j 1).val; omega) (by show 1024 * t.val + (j 1).val < 1024; omega))).symm
  · -- grid point 1: weight 1
    have h1 : t.val % 4 = 1 := by omega
    have h0 : ¬ t.val % 4 = 0 := by omega
    have h2 : ¬ t.val % 4 = 2 := by omega
    have h3 : ¬ t.val % 4 = 3 := by omega
    rw [outsAt0_B V c t h0 h1 h2 h3]
    dsimp only
    funext j
    have hj1 : (j 1).val < 1024 := (j 1).isLt
    refine (lower_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) ((hcond0_1 t).mpr h1) (fun h => h2 ((hcond0_2 t).mp h)) (fun h => h3 ((hcond0_3 t).mp h)) (iblk0 V c 0 t) (iblk0 V c 1 t) (iblk0 V c 2 t) (iblk0 V c 3 t) (iblk0 V c 4 t) (iblk0 V c 5 t) (iblk0 V c 6 t) (iblk0 V c 7 t) j).trans ?_
    rw [whole1 V c t]
    show _ = fusedWh (V c main_arg4) (V c main_arg6) (V c main_arg8) (V c main_arg10) (((cfg0.win 9).blk t).view.emb j)
    rw [embW9 t j]
    exact (wh_at _ _ _ _ _ (j 0) (colOf t (j 1)) (j 1) (by show (1024 * t.val + (j 1).val) % 1024 = (j 1).val; omega)
      (pick_second _ _ _ _ _ (by show 1024 ≤ 1024 * t.val + (j 1).val; omega) (by show 1024 * t.val + (j 1).val < 2048; omega))).symm
  · -- grid point 2: weight 2
    have h2 : t.val % 4 = 2 := by omega
    have h0 : ¬ t.val % 4 = 0 := by omega
    have h1 : ¬ t.val % 4 = 1 := by omega
    have h3 : ¬ t.val % 4 = 3 := by omega
    rw [outsAt0_C V c t h0 h1 h2 h3]
    dsimp only
    funext j
    have hj1 : (j 1).val < 1024 := (j 1).isLt
    refine (lower_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (fun h => h1 ((hcond0_1 t).mp h)) ((hcond0_2 t).mpr h2) (fun h => h3 ((hcond0_3 t).mp h)) (iblk0 V c 0 t) (iblk0 V c 1 t) (iblk0 V c 2 t) (iblk0 V c 3 t) (iblk0 V c 4 t) (iblk0 V c 5 t) (iblk0 V c 6 t) (iblk0 V c 7 t) j).trans ?_
    rw [whole2 V c t]
    show _ = fusedWh (V c main_arg4) (V c main_arg6) (V c main_arg8) (V c main_arg10) (((cfg0.win 9).blk t).view.emb j)
    rw [embW9 t j]
    exact (wh_at _ _ _ _ _ (j 0) (colOf t (j 1)) (j 1) (by show (1024 * t.val + (j 1).val) % 1024 = (j 1).val; omega)
      (pick_third _ _ _ _ _ (by show 2048 ≤ 1024 * t.val + (j 1).val; omega) (by show 1024 * t.val + (j 1).val < 3072; omega))).symm
  · -- grid point 3: weight 3
    have h3 : t.val % 4 = 3 := by omega
    have h0 : ¬ t.val % 4 = 0 := by omega
    have h1 : ¬ t.val % 4 = 1 := by omega
    have h2 : ¬ t.val % 4 = 2 := by omega
    rw [outsAt0_D V c t h0 h1 h2 h3]
    dsimp only
    funext j
    have hj1 : (j 1).val < 1024 := (j 1).isLt
    refine (lower_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (fun h => h1 ((hcond0_1 t).mp h)) (fun h => h2 ((hcond0_2 t).mp h)) ((hcond0_3 t).mpr h3) (iblk0 V c 0 t) (iblk0 V c 1 t) (iblk0 V c 2 t) (iblk0 V c 3 t) (iblk0 V c 4 t) (iblk0 V c 5 t) (iblk0 V c 6 t) (iblk0 V c 7 t) j).trans ?_
    rw [whole3 V c t]
    show _ = fusedWh (V c main_arg4) (V c main_arg6) (V c main_arg8) (V c main_arg10) (((cfg0.win 9).blk t).view.emb j)
    rw [embW9 t j]
    exact (wh_at _ _ _ _ _ (j 0) (colOf t (j 1)) (j 1) (by show (1024 * t.val + (j 1).val) % 1024 = (j 1).val; omega)
      (pick_fourth _ _ _ _ _ (by show 3072 ≤ 1024 * t.val + (j 1).val; omega) (by show 1024 * t.val + (j 1).val < 4096; omega))).symm

theorem mem_blk9 (t : Fin cfg0.N) (i : S1024x4096.Idx) :
    i ∈ ((cfg0.win 9).blk t).view.set ↔ ∀ a : Fin 2, win0_9.index t a * S1024x1024.size a ≤ (i a).val ∧ (i a).val < win0_9.index t a * S1024x1024.size a + S1024x1024.size a := by
  show i ∈ ((View.whole main_v4_1).slice (win0_9.rect t)).set ↔ _
  rw [View.set_slice_whole, Rect.mem_set_unit]
  exact Iff.rfl

/-- Every column of the array is in the block of the point `column / 1024`. -/
theorem cover9 (i : S1024x4096.Idx) : ∃ t : Fin cfg0.N, (cfg0.win 9).flush t = true ∧ i ∈ ((cfg0.win 9).blk t).view.set := by
  have hi0 : (i 0).val < 1024 := (i 0).isLt
  have hi1 : (i 1).val < 4096 := (i 1).isLt
  have hN : cfg0.N = 4 := N_0
  refine ⟨⟨(i 1).val / 1024, by rw [hN]; omega⟩, flush0_9 _, ?_⟩
  obtain ⟨e0, e1⟩ := idx_out9 ⟨(i 1).val / 1024, by rw [hN]; omega⟩
  rw [mem_blk9]
  intro a
  match a with
  | ⟨0, _⟩ =>
    show win0_9.index ⟨(i 1).val / 1024, _⟩ (0 : Fin 2) * 1024 ≤ (i 0).val ∧ (i 0).val < win0_9.index ⟨(i 1).val / 1024, _⟩ (0 : Fin 2) * 1024 + 1024
    rw [e0]; omega
  | ⟨1, _⟩ =>
    show win0_9.index ⟨(i 1).val / 1024, _⟩ (1 : Fin 2) * 1024 ≤ (i 1).val ∧ (i 1).val < win0_9.index ⟨(i 1).val / 1024, _⟩ (1 : Fin 2) * 1024 + 1024
    rw [e1]; show (i 1).val / 1024 * 1024 ≤ (i 1).val ∧ (i 1).val < (i 1).val / 1024 * 1024 + 1024; omega

/-- The array of output window 9 after the region. -/
theorem final9 (c : Dev nD) : (dat0 V c).arrAt 9 cfg0.N = fusedWh (V c main_arg4) (V c main_arg6) (V c main_arg8) (V c main_arg10) :=
  (dat0 V c).arrAt_eq_of_cover 9 _ (fun t _ => flushed9 V c t) cover9

/-- Where point `t`'s block of output window 10 sits in its array: column block `t`. -/
theorem embB (t : Fin cfg0.N) (j : S1x1024.Idx) :
    ((cfg0.win 10).blk t).view.emb j = ix2 (j 0) (colOf t (j 1)) := by
  obtain ⟨e0, e1⟩ := idx_out10 t
  funext a
  apply Fin.ext
  match a with
  | ⟨0, _⟩ => show win0_10.index t (0 : Fin 2) * 1 + 1 * (j 0).val = (j 0).val; rw [e0]; omega
  | ⟨1, _⟩ => show win0_10.index t (1 : Fin 2) * 1024 + 1 * (j 1).val = 1024 * t.val + (j 1).val; rw [e1]; omega

/-- The window's blocks are whole: cutting a block's buffer to the block is the identity. -/
theorem cut10 (t : Fin cfg0.N) (v : Vec Ideal S1x1024 .f32) : (cfg0.win 10).cut (grid0.coords t) v = v := rfl

/-- What point `t` writes back through output window 10 is its block of the gate-major array. -/
theorem flushed10 (c : Dev nD) (t : Fin cfg0.N) :
    (dat0 V c).flushed 10 t = ((cfg0.win 10).blk t).view.read (Elt Ideal) (fusedRow (V c main_v0) (V c main_v1) (V c main_v2) (V c main_v3)) := by
  have ht : t.val < 4 := lt_of_lt_of_eq t.isLt (show cfg0.N = 4 from N_0)
  show (cfg0.win 10).cut (grid0.coords t) ((dat0 V c).after 10 t) = _
  rw [after0_10]
  refine (cut10 t _).trans ?_
  rcases (show t.val = 0 ∨ t.val = 1 ∨ t.val = 2 ∨ t.val = 3 by omega) with hv | hv | hv | hv
  · -- grid point 0: bias row 0
    have h0 : t.val % 4 = 0 := by omega
    have h1 : ¬ t.val % 4 = 1 := by omega
    have h2 : ¬ t.val % 4 = 2 := by omega
    have h3 : ¬ t.val % 4 = 3 := by omega
    rw [outsAt0_A V c t h0 h1 h2 h3]
    dsimp only
    rw [bias_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (fun h => h1 ((hcond0_1 t).mp h)) (fun h => h2 ((hcond0_2 t).mp h)) (fun h => h3 ((hcond0_3 t).mp h)) (iblk0 V c 0 t) (iblk0 V c 1 t) (iblk0 V c 2 t) (iblk0 V c 3 t) (iblk0 V c 4 t) (iblk0 V c 5 t) (iblk0 V c 6 t) (iblk0 V c 7 t)]
    rw [whole4 V c t]
    funext j
    have hj1 : (j 1).val < 1024 := (j 1).isLt
    show _ = fusedRow (V c main_v0) (V c main_v1) (V c main_v2) (V c main_v3) (((cfg0.win 10).blk t).view.emb j)
    rw [embB t j]
    refine (congrArg _ (eq_ix2 (n0 := 1) (n1 := 1024) j)).trans ?_
    exact (row_at _ _ _ _ _ (colOf t (j 1)) (j 0) (j 1) (by show (1024 * t.val + (j 1).val) % 1024 = (j 1).val; omega)
      (pick_first _ _ _ _ _ (by show 0 ≤ 1024 * t.val + (j 1).val; omega) (by show 1024 * t.val + (j 1).val < 1024; omega))).symm
  · -- grid point 1: bias row 1
    have h1 : t.val % 4 = 1 := by omega
    have h0 : ¬ t.val % 4 = 0 := by omega
    have h2 : ¬ t.val % 4 = 2 := by omega
    have h3 : ¬ t.val % 4 = 3 := by omega
    rw [outsAt0_B V c t h0 h1 h2 h3]
    dsimp only
    rw [bias_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) ((hcond0_1 t).mpr h1) (fun h => h2 ((hcond0_2 t).mp h)) (fun h => h3 ((hcond0_3 t).mp h)) (iblk0 V c 0 t) (iblk0 V c 1 t) (iblk0 V c 2 t) (iblk0 V c 3 t) (iblk0 V c 4 t) (iblk0 V c 5 t) (iblk0 V c 6 t) (iblk0 V c 7 t)]
    rw [whole5 V c t]
    funext j
    have hj1 : (j 1).val < 1024 := (j 1).isLt
    show _ = fusedRow (V c main_v0) (V c main_v1) (V c main_v2) (V c main_v3) (((cfg0.win 10).blk t).view.emb j)
    rw [embB t j]
    refine (congrArg _ (eq_ix2 (n0 := 1) (n1 := 1024) j)).trans ?_
    exact (row_at _ _ _ _ _ (colOf t (j 1)) (j 0) (j 1) (by show (1024 * t.val + (j 1).val) % 1024 = (j 1).val; omega)
      (pick_second _ _ _ _ _ (by show 1024 ≤ 1024 * t.val + (j 1).val; omega) (by show 1024 * t.val + (j 1).val < 2048; omega))).symm
  · -- grid point 2: bias row 2
    have h2 : t.val % 4 = 2 := by omega
    have h0 : ¬ t.val % 4 = 0 := by omega
    have h1 : ¬ t.val % 4 = 1 := by omega
    have h3 : ¬ t.val % 4 = 3 := by omega
    rw [outsAt0_C V c t h0 h1 h2 h3]
    dsimp only
    rw [bias_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (fun h => h1 ((hcond0_1 t).mp h)) ((hcond0_2 t).mpr h2) (fun h => h3 ((hcond0_3 t).mp h)) (iblk0 V c 0 t) (iblk0 V c 1 t) (iblk0 V c 2 t) (iblk0 V c 3 t) (iblk0 V c 4 t) (iblk0 V c 5 t) (iblk0 V c 6 t) (iblk0 V c 7 t)]
    rw [whole6 V c t]
    funext j
    have hj1 : (j 1).val < 1024 := (j 1).isLt
    show _ = fusedRow (V c main_v0) (V c main_v1) (V c main_v2) (V c main_v3) (((cfg0.win 10).blk t).view.emb j)
    rw [embB t j]
    refine (congrArg _ (eq_ix2 (n0 := 1) (n1 := 1024) j)).trans ?_
    exact (row_at _ _ _ _ _ (colOf t (j 1)) (j 0) (j 1) (by show (1024 * t.val + (j 1).val) % 1024 = (j 1).val; omega)
      (pick_third _ _ _ _ _ (by show 2048 ≤ 1024 * t.val + (j 1).val; omega) (by show 1024 * t.val + (j 1).val < 3072; omega))).symm
  · -- grid point 3: bias row 3
    have h3 : t.val % 4 = 3 := by omega
    have h0 : ¬ t.val % 4 = 0 := by omega
    have h1 : ¬ t.val % 4 = 1 := by omega
    have h2 : ¬ t.val % 4 = 2 := by omega
    rw [outsAt0_D V c t h0 h1 h2 h3]
    dsimp only
    rw [bias_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (fun h => h1 ((hcond0_1 t).mp h)) (fun h => h2 ((hcond0_2 t).mp h)) ((hcond0_3 t).mpr h3) (iblk0 V c 0 t) (iblk0 V c 1 t) (iblk0 V c 2 t) (iblk0 V c 3 t) (iblk0 V c 4 t) (iblk0 V c 5 t) (iblk0 V c 6 t) (iblk0 V c 7 t)]
    rw [whole7 V c t]
    funext j
    have hj1 : (j 1).val < 1024 := (j 1).isLt
    show _ = fusedRow (V c main_v0) (V c main_v1) (V c main_v2) (V c main_v3) (((cfg0.win 10).blk t).view.emb j)
    rw [embB t j]
    refine (congrArg _ (eq_ix2 (n0 := 1) (n1 := 1024) j)).trans ?_
    exact (row_at _ _ _ _ _ (colOf t (j 1)) (j 0) (j 1) (by show (1024 * t.val + (j 1).val) % 1024 = (j 1).val; omega)
      (pick_fourth _ _ _ _ _ (by show 3072 ≤ 1024 * t.val + (j 1).val; omega) (by show 1024 * t.val + (j 1).val < 4096; omega))).symm

theorem mem_blk10 (t : Fin cfg0.N) (i : S1x4096.Idx) :
    i ∈ ((cfg0.win 10).blk t).view.set ↔ ∀ a : Fin 2, win0_10.index t a * S1x1024.size a ≤ (i a).val ∧ (i a).val < win0_10.index t a * S1x1024.size a + S1x1024.size a := by
  show i ∈ ((View.whole main_v4_2).slice (win0_10.rect t)).set ↔ _
  rw [View.set_slice_whole, Rect.mem_set_unit]
  exact Iff.rfl

/-- Every column of the array is in the block of the point `column / 1024`. -/
theorem cover10 (i : S1x4096.Idx) : ∃ t : Fin cfg0.N, (cfg0.win 10).flush t = true ∧ i ∈ ((cfg0.win 10).blk t).view.set := by
  have hi0 : (i 0).val < 1 := (i 0).isLt
  have hi1 : (i 1).val < 4096 := (i 1).isLt
  have hN : cfg0.N = 4 := N_0
  refine ⟨⟨(i 1).val / 1024, by rw [hN]; omega⟩, flush0_10 _, ?_⟩
  obtain ⟨e0, e1⟩ := idx_out10 ⟨(i 1).val / 1024, by rw [hN]; omega⟩
  rw [mem_blk10]
  intro a
  match a with
  | ⟨0, _⟩ =>
    show win0_10.index ⟨(i 1).val / 1024, _⟩ (0 : Fin 2) * 1 ≤ (i 0).val ∧ (i 0).val < win0_10.index ⟨(i 1).val / 1024, _⟩ (0 : Fin 2) * 1 + 1
    rw [e0]; omega
  | ⟨1, _⟩ =>
    show win0_10.index ⟨(i 1).val / 1024, _⟩ (1 : Fin 2) * 1024 ≤ (i 1).val ∧ (i 1).val < win0_10.index ⟨(i 1).val / 1024, _⟩ (1 : Fin 2) * 1024 + 1024
    rw [e1]; show (i 1).val / 1024 * 1024 ≤ (i 1).val ∧ (i 1).val < (i 1).val / 1024 * 1024 + 1024; omega

/-- The array of output window 10 after the region. -/
theorem final10 (c : Dev nD) : (dat0 V c).arrAt 10 cfg0.N = fusedRow (V c main_v0) (V c main_v1) (V c main_v2) (V c main_v3) :=
  (dat0 V c).arrAt_eq_of_cover 10 _ (fun t _ => flushed10 V c t) cover10

end

end Cert.KernelIdeal.PrepRegion

end
-- ==== Proof.KernelValue.lean ====
/-
  What the idealized kernel program computes.

  The buffers at each boundary of the run, read back: the host stretch turns each bias vector into a 1 × 1024 row
  and leaves the arguments alone; the first region leaves the gate-major weights and bias row (over the arguments
  as launched); the second region leaves, in the two result arrays, the new hidden and cell state over what it
  finds — `x`, `h`, `c` as launched and the first region's three arrays.  The gate-major layout only renames indices,
  so the results are the cell over the arguments themselves.
-/
import proofs.«112480_j55044300866146_2_alg».proof.Proof.WholeRun
import proofs.«112480_j55044300866146_2_alg».proof.Proof.CellRegion
import proofs.«112480_j55044300866146_2_alg».proof.Proof.PrepRegion
import Idealize.ShloMosaic.Lib.StableHlo.Run
import Idealize.ShloMosaic.Lib.ValueLayout

set_option maxRecDepth 16384

noncomputable section

namespace Cert.KernelIdeal.KernelValue

open Cert.KernelIdeal Cert.KernelIdeal.Gen Cert.LstmCell
open Idealize.ShloMosaic Idealize.ShloMosaic.ValueIdx Idealize.ShloMosaic.TcCoe Idealize.SL.Sem Idealize.ShloMosaic.StableHlo
open Idealize.ShloMosaic.Pipeline (Dat)

/-- Four bias vectors, each cast to a 1 × 1024 row, side by side, are the bias row of the layout. -/
theorem fusedRow_cast (bf bi bu bo : (⟨1, ![1024]⟩ : Shape).Idx → EReal) (h : (⟨1, ![1024]⟩ : Shape).ShapeCasts ⟨2, ![1, 1024]⟩) :
    PrepRegion.fusedRow (shapeCast ⟨2, ![1, 1024]⟩ bf h) (shapeCast ⟨2, ![1, 1024]⟩ bi h) (shapeCast ⟨2, ![1, 1024]⟩ bu h)
      (shapeCast ⟨2, ![1, 1024]⟩ bo h) = fusedB bf bi bu bo := by
  funext i
  unfold PrepRegion.fusedRow fusedB pick
  split
  · exact shapeCast_a_1a_apply bf h 0 _
  · split
    · exact shapeCast_a_1a_apply bi h 0 _
    · split
      · exact shapeCast_a_1a_apply bu h 0 _
      · exact shapeCast_a_1a_apply bo h 0 _

variable (m : (ℓ : Loc nD τ sig) → Buf (Elt Ideal) ℓ) (ρ : Dev nD → PrngReg)

/-! ## The first region's entry: after the host stretch -/

theorem entry_main_arg4 (c : Dev nD) : V1 m ρ c main_arg4 = m ((c : Thread nD τ).loc main_arg4) := by
  show StableHlo.after hostOps0 (W0 m ρ c) (Proc.devRef .tc main_arg4) = _
  dsimp only [hostOps0]
  after_results

theorem entry_main_arg6 (c : Dev nD) : V1 m ρ c main_arg6 = m ((c : Thread nD τ).loc main_arg6) := by
  show StableHlo.after hostOps0 (W0 m ρ c) (Proc.devRef .tc main_arg6) = _
  dsimp only [hostOps0]
  after_results

theorem entry_main_arg8 (c : Dev nD) : V1 m ρ c main_arg8 = m ((c : Thread nD τ).loc main_arg8) := by
  show StableHlo.after hostOps0 (W0 m ρ c) (Proc.devRef .tc main_arg8) = _
  dsimp only [hostOps0]
  after_results

theorem entry_main_arg10 (c : Dev nD) : V1 m ρ c main_arg10 = m ((c : Thread nD τ).loc main_arg10) := by
  show StableHlo.after hostOps0 (W0 m ρ c) (Proc.devRef .tc main_arg10) = _
  dsimp only [hostOps0]
  after_results

theorem entry_main_v0 (c : Dev nD) : (V1 m ρ c main_v0 : S1x1024.Idx → EReal)
    = shapeCast S1x1024 (m ((c : Thread nD τ).loc main_arg5)) shapeCasts_S1024_S1x1024 := by
  show StableHlo.after hostOps0 (W0 m ρ c) (Proc.devRef .tc main_v0) = _
  dsimp only [hostOps0]
  after_results
  rfl

theorem entry_main_v1 (c : Dev nD) : (V1 m ρ c main_v1 : S1x1024.Idx → EReal)
    = shapeCast S1x1024 (m ((c : Thread nD τ).loc main_arg7)) shapeCasts_S1024_S1x1024 := by
  show StableHlo.after hostOps0 (W0 m ρ c) (Proc.devRef .tc main_v1) = _
  dsimp only [hostOps0]
  after_results
  rfl

theorem entry_main_v2 (c : Dev nD) : (V1 m ρ c main_v2 : S1x1024.Idx → EReal)
    = shapeCast S1x1024 (m ((c : Thread nD τ).loc main_arg9)) shapeCasts_S1024_S1x1024 := by
  show StableHlo.after hostOps0 (W0 m ρ c) (Proc.devRef .tc main_v2) = _
  dsimp only [hostOps0]
  after_results
  rfl

theorem entry_main_v3 (c : Dev nD) : (V1 m ρ c main_v3 : S1x1024.Idx → EReal)
    = shapeCast S1x1024 (m ((c : Thread nD τ).loc main_arg11)) shapeCasts_S1024_S1x1024 := by
  show StableHlo.after hostOps0 (W0 m ρ c) (Proc.devRef .tc main_v3) = _
  dsimp only [hostOps0]
  after_results
  rfl

/-! ## The second region's entry -/

theorem rows_main_arg0 (c : Dev nD) : V2 m ρ c main_arg0 = m ((c : Thread nD τ).loc main_arg0) :=
  ((W3_arr m ρ c 0).trans (((dat1 (V2 m ρ) c).arrAt_in 0 rfl _).trans (A_eq1 (V2 m ρ) c 0))).symm.trans (W3_main_arg0 m ρ c)

theorem rows_main_arg1 (c : Dev nD) : V2 m ρ c main_arg1 = m ((c : Thread nD τ).loc main_arg1) :=
  ((W3_arr m ρ c 1).trans (((dat1 (V2 m ρ) c).arrAt_in 1 rfl _).trans (A_eq1 (V2 m ρ) c 1))).symm.trans (W3_main_arg1 m ρ c)

theorem rows_main_arg2 (c : Dev nD) : V2 m ρ c main_arg2 = m ((c : Thread nD τ).loc main_arg2) :=
  ((W3_arr m ρ c 2).trans (((dat1 (V2 m ρ) c).arrAt_in 2 rfl _).trans (A_eq1 (V2 m ρ) c 2))).symm.trans (W3_main_arg2 m ρ c)

theorem layout_wx (c : Dev nD) : V2 m ρ c main_v4_0
    = fusedWx (m ((c : Thread nD τ).loc main_arg4)) (m ((c : Thread nD τ).loc main_arg6)) (m ((c : Thread nD τ).loc main_arg8)) (m ((c : Thread nD τ).loc main_arg10)) := by
  show W2 m ρ c (Proc.devRef .tc (Pipeline.arrRef spec0 8)) = _
  rw [W2_arr m ρ c 8, PrepRegion.final8 (V1 m ρ) c, entry_main_arg4, entry_main_arg6, entry_main_arg8, entry_main_arg10]

theorem layout_wh (c : Dev nD) : V2 m ρ c main_v4_1
    = fusedWh (m ((c : Thread nD τ).loc main_arg4)) (m ((c : Thread nD τ).loc main_arg6)) (m ((c : Thread nD τ).loc main_arg8)) (m ((c : Thread nD τ).loc main_arg10)) := by
  show W2 m ρ c (Proc.devRef .tc (Pipeline.arrRef spec0 9)) = _
  rw [W2_arr m ρ c 9, PrepRegion.final9 (V1 m ρ) c, entry_main_arg4, entry_main_arg6, entry_main_arg8, entry_main_arg10]

theorem layout_b (c : Dev nD) : V2 m ρ c main_v4_2
    = fusedB (m ((c : Thread nD τ).loc main_arg5)) (m ((c : Thread nD τ).loc main_arg7)) (m ((c : Thread nD τ).loc main_arg9)) (m ((c : Thread nD τ).loc main_arg11)) := by
  show W2 m ρ c (Proc.devRef .tc (Pipeline.arrRef spec0 10)) = _
  rw [W2_arr m ρ c 10, PrepRegion.final10 (V1 m ρ) c, entry_main_v0, entry_main_v1, entry_main_v2, entry_main_v3]
  exact fusedRow_cast _ _ _ _ _

/-! ## The results -/

theorem result_hidden (c : Dev nD) : W3 m ρ c (Proc.devRef .tc main_v5_0) = hiddenArr (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show W3 m ρ c (Proc.devRef .tc (Pipeline.arrRef spec1 6)) = _
  rw [W3_arr m ρ c 6, CellRegion.final6 (V2 m ρ) c, rows_main_arg0, rows_main_arg1, rows_main_arg2, layout_wx, layout_wh, layout_b]
  exact fusedHidden_eq _ _ _ _ _ _ _ _ _ _ _

theorem result_cell (c : Dev nD) : W3 m ρ c (Proc.devRef .tc main_v5_1) = cellArr (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show W3 m ρ c (Proc.devRef .tc (Pipeline.arrRef spec1 7)) = _
  rw [W3_arr m ρ c 7, CellRegion.final7 (V2 m ρ) c, rows_main_arg0, rows_main_arg1, rows_main_arg2, layout_wx, layout_wh, layout_b]
  exact fusedCell_eq _ _ _ _ _ _ _ _ _ _ _

/-- The run of the idealized kernel program: it terminates, the two result arrays hold the new hidden and cell state
    of the arguments as launched, and the arguments are unchanged. -/
theorem run : θ_run defs (onTc (τ := τ) (main (F := Ideal))) ⟨m, fun _ => 0, ρ⟩ fun r => ∀ c : Dev nD,
      r.2.mem ((c.tc : Thread nD τ).loc main_v5_0) = hiddenArr (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c.tc : Thread nD τ).loc main_v5_1) = cellArr (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c =>
    ⟨(h c _ (mem_uc main_v5_0 (by decide))).trans (result_hidden m ρ c),
      (h c _ (mem_uc main_v5_1 (by decide))).trans (result_cell m ρ c),
      (h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c),
      (h c _ (mem_uc main_arg4 (by decide))).trans (W3_main_arg4 m ρ c),
      (h c _ (mem_uc main_arg5 (by decide))).trans (W3_main_arg5 m ρ c),
      (h c _ (mem_uc main_arg6 (by decide))).trans (W3_main_arg6 m ρ c),
      (h c _ (mem_uc main_arg7 (by decide))).trans (W3_main_arg7 m ρ c),
      (h c _ (mem_uc main_arg8 (by decide))).trans (W3_main_arg8 m ρ c),
      (h c _ (mem_uc main_arg9 (by decide))).trans (W3_main_arg9 m ρ c),
      (h c _ (mem_uc main_arg10 (by decide))).trans (W3_main_arg10 m ρ c),
      (h c _ (mem_uc main_arg11 (by decide))).trans (W3_main_arg11 m ρ c)⟩)
    (WholeRun.run_all m ρ)

end Cert.KernelIdeal.KernelValue

end
-- ==== Proof.RefCell.lean ====
/-
  The reference program of the LSTM cell, read index by index over the extended reals, is the cell of the
  specification.

  The reference joins `x` and `h_prev` side by side into one 8192 × 2048 array, joins the four gate weights side
  by side into one 2048 × 4096 array and the four biases end to end into one vector of 4096, contracts once, adds the
  bias and cuts the result into four bands of 1024 columns.  Column `1024·g + q` of the joined weight is column
  `q` of gate `g`'s weight, and likewise for the bias; row `r` of the joined input is `[x[r,·], h[r,·]]`.  So
  band `g` at `(r, q)` is the single contraction over the 2048 joined coordinates against gate `g`'s weight, plus
  gate `g`'s bias, and a sum over 2048 coordinates is the sum of its two halves: the gate's pre-activation.  The rest
  of the program is elementwise: the logistic function spelled as `1 / (1 + e⁻ᵛ)`, the hyperbolic tangent, and the
  two products and the sum of the cell update.
-/
import proofs.«112480_j55044300866146_2_alg».proof.Proof.Gen.ReferenceIdeal.Read
import proofs.«112480_j55044300866146_2_alg».proof.Proof.CellSpec
import Idealize.ShloMosaic.Lib.Pipeline.Value
import Idealize.ShloMosaic.Lib.ValueIdx

noncomputable section

open scoped BigOperators

namespace Cert.ReferenceIdeal.Cell

open Cert.ReferenceIdeal Cert.ReferenceIdeal.Gen Cert.ReferenceIdeal.Read Idealize.ShloMosaic Idealize.ShloMosaic.ValueIdx

/-! ## The three joined arrays at an index -/

/-- Row `r` of the joined input at joined coordinate `k`: `x[r,k]` below 1024, `h[r,k-1024]` from 1024 on. -/
theorem joined_row (x0 x1 : (⟨S8192x1024, .f32⟩ : BufTy).Contents (Elt Ideal)) (r : Fin 8192) (k : Fin 2048) :
    val_main_v0 (F := Ideal) x0 x1 (ix2 r k) = Cert.LstmCell.joined x0 x1 r k := by
  unfold val_main_v0 Cert.LstmCell.joined
  by_cases hk : k.val < 1024
  · rw [dif_pos hk]
    exact concatenate_pair_apply_left (1 : Fin S8192x2048.rank) x0 x1 _ (ix2 r k) rfl (ix2 r ⟨k.val, hk⟩)
      (fun b => match b with | ⟨0, _⟩ => rfl | ⟨1, _⟩ => rfl)
  · rw [dif_neg hk]
    exact concatenate_pair_apply_right (1 : Fin S8192x2048.rank) x0 x1 _ (ix2 r k) rfl rfl
      (ix2 r ⟨k.val - 1024, by have := k.isLt; omega⟩)
      (fun b hb => match b, hb with | ⟨0, _⟩, _ => rfl | ⟨1, _⟩, hb => absurd rfl hb)
      (by show (k.val - 1024) + 1024 = k.val; omega)

/-- Column `q` of the joined weight is column `q` of the first gate's weight. -/
theorem weight_col0 (x4 x6 x8 x10 : (⟨S2048x1024, .f32⟩ : BufTy).Contents (Elt Ideal)) (k : Fin 2048) (q : Fin 1024) :
    val_main_v1 (F := Ideal) x4 x6 x8 x10 (ix2 k (⟨q.val, by have := q.isLt; omega⟩ : Fin 4096)) = x4 (ix2 k q) := by
  unfold val_main_v1
  exact concatenate_apply_piece (1 : Fin S2048x4096.rank) _ _ _ 0 (by show (0 : Nat) < 4; omega) S2048x1024 x4 rfl rfl 0 rfl
    (ix2 k q) (fun b hb => match b, hb with | ⟨0, _⟩, _ => rfl | ⟨1, _⟩, hb => absurd rfl hb)
    (by show 0 + q.val = q.val; omega)

/-- Entry `q` of the joined bias is entry `q` of the first gate's bias. -/
theorem bias_col0 (x5 x7 x9 x11 : (⟨S1024, .f32⟩ : BufTy).Contents (Elt Ideal)) (q : Fin 1024) :
    val_main_v2 (F := Ideal) x5 x7 x9 x11 (ix1 (⟨q.val, by have := q.isLt; omega⟩ : Fin 4096)) = x5 (ix1 q) := by
  unfold val_main_v2
  exact concatenate_apply_piece (0 : Fin S4096.rank) _ _ _ 0 (by show (0 : Nat) < 4; omega) S1024 x5 rfl rfl 0 rfl
    (ix1 q) (fun b hb => match b, hb with | ⟨0, _⟩, hb => absurd rfl hb)
    (by show 0 + q.val = q.val; omega)

/-- Column `1024 + q` of the joined weight is column `q` of the second gate's weight. -/
theorem weight_col1 (x4 x6 x8 x10 : (⟨S2048x1024, .f32⟩ : BufTy).Contents (Elt Ideal)) (k : Fin 2048) (q : Fin 1024) :
    val_main_v1 (F := Ideal) x4 x6 x8 x10 (ix2 k (⟨1024 + q.val, by have := q.isLt; omega⟩ : Fin 4096)) = x6 (ix2 k q) := by
  unfold val_main_v1
  exact concatenate_apply_piece (1 : Fin S2048x4096.rank) _ _ _ 1 (by show (1 : Nat) < 4; omega) S2048x1024 x6 rfl rfl 1024 rfl
    (ix2 k q) (fun b hb => match b, hb with | ⟨0, _⟩, _ => rfl | ⟨1, _⟩, hb => absurd rfl hb)
    (by show 1024 + q.val = 1024 + q.val; rfl)

/-- Entry `1024 + q` of the joined bias is entry `q` of the second gate's bias. -/
theorem bias_col1 (x5 x7 x9 x11 : (⟨S1024, .f32⟩ : BufTy).Contents (Elt Ideal)) (q : Fin 1024) :
    val_main_v2 (F := Ideal) x5 x7 x9 x11 (ix1 (⟨1024 + q.val, by have := q.isLt; omega⟩ : Fin 4096)) = x7 (ix1 q) := by
  unfold val_main_v2
  exact concatenate_apply_piece (0 : Fin S4096.rank) _ _ _ 1 (by show (1 : Nat) < 4; omega) S1024 x7 rfl rfl 1024 rfl
    (ix1 q) (fun b hb => match b, hb with | ⟨0, _⟩, hb => absurd rfl hb)
    (by show 1024 + q.val = 1024 + q.val; rfl)

/-- Column `2048 + q` of the joined weight is column `q` of the third gate's weight. -/
theorem weight_col2 (x4 x6 x8 x10 : (⟨S2048x1024, .f32⟩ : BufTy).Contents (Elt Ideal)) (k : Fin 2048) (q : Fin 1024) :
    val_main_v1 (F := Ideal) x4 x6 x8 x10 (ix2 k (⟨2048 + q.val, by have := q.isLt; omega⟩ : Fin 4096)) = x8 (ix2 k q) := by
  unfold val_main_v1
  exact concatenate_apply_piece (1 : Fin S2048x4096.rank) _ _ _ 2 (by show (2 : Nat) < 4; omega) S2048x1024 x8 rfl rfl 2048 rfl
    (ix2 k q) (fun b hb => match b, hb with | ⟨0, _⟩, _ => rfl | ⟨1, _⟩, hb => absurd rfl hb)
    (by show 2048 + q.val = 2048 + q.val; rfl)

/-- Entry `2048 + q` of the joined bias is entry `q` of the third gate's bias. -/
theorem bias_col2 (x5 x7 x9 x11 : (⟨S1024, .f32⟩ : BufTy).Contents (Elt Ideal)) (q : Fin 1024) :
    val_main_v2 (F := Ideal) x5 x7 x9 x11 (ix1 (⟨2048 + q.val, by have := q.isLt; omega⟩ : Fin 4096)) = x9 (ix1 q) := by
  unfold val_main_v2
  exact concatenate_apply_piece (0 : Fin S4096.rank) _ _ _ 2 (by show (2 : Nat) < 4; omega) S1024 x9 rfl rfl 2048 rfl
    (ix1 q) (fun b hb => match b, hb with | ⟨0, _⟩, hb => absurd rfl hb)
    (by show 2048 + q.val = 2048 + q.val; rfl)

/-- Column `3072 + q` of the joined weight is column `q` of the fourth gate's weight. -/
theorem weight_col3 (x4 x6 x8 x10 : (⟨S2048x1024, .f32⟩ : BufTy).Contents (Elt Ideal)) (k : Fin 2048) (q : Fin 1024) :
    val_main_v1 (F := Ideal) x4 x6 x8 x10 (ix2 k (⟨3072 + q.val, by have := q.isLt; omega⟩ : Fin 4096)) = x10 (ix2 k q) := by
  unfold val_main_v1
  exact concatenate_apply_piece (1 : Fin S2048x4096.rank) _ _ _ 3 (by show (3 : Nat) < 4; omega) S2048x1024 x10 rfl rfl 3072 rfl
    (ix2 k q) (fun b hb => match b, hb with | ⟨0, _⟩, _ => rfl | ⟨1, _⟩, hb => absurd rfl hb)
    (by show 3072 + q.val = 3072 + q.val; rfl)

/-- Entry `3072 + q` of the joined bias is entry `q` of the fourth gate's bias. -/
theorem bias_col3 (x5 x7 x9 x11 : (⟨S1024, .f32⟩ : BufTy).Contents (Elt Ideal)) (q : Fin 1024) :
    val_main_v2 (F := Ideal) x5 x7 x9 x11 (ix1 (⟨3072 + q.val, by have := q.isLt; omega⟩ : Fin 4096)) = x11 (ix1 q) := by
  unfold val_main_v2
  exact concatenate_apply_piece (0 : Fin S4096.rank) _ _ _ 3 (by show (3 : Nat) < 4; omega) S1024 x11 rfl rfl 3072 rfl
    (ix1 q) (fun b hb => match b, hb with | ⟨0, _⟩, hb => absurd rfl hb)
    (by show 3072 + q.val = 3072 + q.val; rfl)

/-! ## The contraction plus the bias, at an index -/

/-- The biased contraction at `(r, c)`: the sum over the 2048 joined coordinates of the joined input's row `r` against
    the joined weight's column `c`, plus the joined bias at `c`. -/
theorem v6_at (x0 x1 : (⟨S8192x1024, .f32⟩ : BufTy).Contents (Elt Ideal))
    (x4 : (⟨S2048x1024, .f32⟩ : BufTy).Contents (Elt Ideal)) (x5 : (⟨S1024, .f32⟩ : BufTy).Contents (Elt Ideal))
    (x6 : (⟨S2048x1024, .f32⟩ : BufTy).Contents (Elt Ideal)) (x7 : (⟨S1024, .f32⟩ : BufTy).Contents (Elt Ideal))
    (x8 : (⟨S2048x1024, .f32⟩ : BufTy).Contents (Elt Ideal)) (x9 : (⟨S1024, .f32⟩ : BufTy).Contents (Elt Ideal))
    (x10 : (⟨S2048x1024, .f32⟩ : BufTy).Contents (Elt Ideal)) (x11 : (⟨S1024, .f32⟩ : BufTy).Contents (Elt Ideal))
    (r : Fin 8192) (c : Fin 4096) :
    val_main_v6 (F := Ideal) x0 x1 x4 x5 x6 x7 x8 x9 x10 x11 (ix2 r c)
      = (∑ k : Fin 2048, val_main_v0 (F := Ideal) x0 x1 (ix2 r k) * val_main_v1 (F := Ideal) x4 x6 x8 x10 (ix2 k c))
        + val_main_v2 (F := Ideal) x5 x7 x9 x11 (ix1 c) := by
  rw [val_main_v6_apply, val_main_v3_apply, val_main_v5_apply, val_main_v4_apply]
  have e1 : ∀ k : Fin 2048, lidx_main_v3 (ix2 r c) k = ix2 r k := fun k =>
    funext fun a => match a with | ⟨0, _⟩ => rfl | ⟨1, _⟩ => rfl
  have e2 : ∀ k : Fin 2048, ridx_main_v3 (ix2 r c) k = ix2 k c := fun k =>
    funext fun a => match a with | ⟨0, _⟩ => rfl | ⟨1, _⟩ => rfl
  have e3 : idx_main_v4 (idx_main_v5 (ix2 r c)) = ix1 c :=
    funext fun a => match a with | ⟨0, _⟩ => rfl
  simp only [e1, e2, e3]
  rfl

/-! ## The four bands are the four gates' pre-activations -/

/-- Band 0 (columns 0 to 1024) at `(r, q)` is the pre-activation of the gate with weight `x4` and bias `x5`. -/
theorem band0 (x0 x1 : (⟨S8192x1024, .f32⟩ : BufTy).Contents (Elt Ideal))
    (x4 : (⟨S2048x1024, .f32⟩ : BufTy).Contents (Elt Ideal)) (x5 : (⟨S1024, .f32⟩ : BufTy).Contents (Elt Ideal))
    (x6 : (⟨S2048x1024, .f32⟩ : BufTy).Contents (Elt Ideal)) (x7 : (⟨S1024, .f32⟩ : BufTy).Contents (Elt Ideal))
    (x8 : (⟨S2048x1024, .f32⟩ : BufTy).Contents (Elt Ideal)) (x9 : (⟨S1024, .f32⟩ : BufTy).Contents (Elt Ideal))
    (x10 : (⟨S2048x1024, .f32⟩ : BufTy).Contents (Elt Ideal)) (x11 : (⟨S1024, .f32⟩ : BufTy).Contents (Elt Ideal))
    (r : Fin 8192) (q : Fin 1024) :
    val_main_v7 (F := Ideal) x0 x1 x4 x5 x6 x7 x8 x9 x10 x11 (ix2 r q) = Cert.LstmCell.pre x0 x1 x4 x5 r q := by
  rw [val_main_v7_apply]
  have e : idx_main_v7 (ix2 r q) = ix2 r (⟨q.val, by have := q.isLt; omega⟩ : Fin 4096) :=
    funext fun a => match a with | ⟨0, _⟩ => rfl | ⟨1, _⟩ => rfl
  rw [e, v6_at]
  simp only [joined_row, weight_col0, bias_col0]
  unfold Cert.LstmCell.pre
  rw [Cert.LstmCell.sum_joined]

/-- Band 1 (columns 1024 to 2048) at `(r, q)` is the pre-activation of the gate with weight `x6` and bias `x7`. -/
theorem band1 (x0 x1 : (⟨S8192x1024, .f32⟩ : BufTy).Contents (Elt Ideal))
    (x4 : (⟨S2048x1024, .f32⟩ : BufTy).Contents (Elt Ideal)) (x5 : (⟨S1024, .f32⟩ : BufTy).Contents (Elt Ideal))
    (x6 : (⟨S2048x1024, .f32⟩ : BufTy).Contents (Elt Ideal)) (x7 : (⟨S1024, .f32⟩ : BufTy).Contents (Elt Ideal))
    (x8 : (⟨S2048x1024, .f32⟩ : BufTy).Contents (Elt Ideal)) (x9 : (⟨S1024, .f32⟩ : BufTy).Contents (Elt Ideal))
    (x10 : (⟨S2048x1024, .f32⟩ : BufTy).Contents (Elt Ideal)) (x11 : (⟨S1024, .f32⟩ : BufTy).Contents (Elt Ideal))
    (r : Fin 8192) (q : Fin 1024) :
    val_main_v8 (F := Ideal) x0 x1 x4 x5 x6 x7 x8 x9 x10 x11 (ix2 r q) = Cert.LstmCell.pre x0 x1 x6 x7 r q := by
  rw [val_main_v8_apply]
  have e : idx_main_v8 (ix2 r q) = ix2 r (⟨1024 + q.val, by have := q.isLt; omega⟩ : Fin 4096) :=
    funext fun a => match a with | ⟨0, _⟩ => rfl | ⟨1, _⟩ => rfl
  rw [e, v6_at]
  simp only [joined_row, weight_col1, bias_col1]
  unfold Cert.LstmCell.pre
  rw [Cert.LstmCell.sum_joined]

/-- Band 2 (columns 2048 to 3072) at `(r, q)` is the pre-activation of the gate with weight `x8` and bias `x9`. -/
theorem band2 (x0 x1 : (⟨S8192x1024, .f32⟩ : BufTy).Contents (Elt Ideal))
    (x4 : (⟨S2048x1024, .f32⟩ : BufTy).Contents (Elt Ideal)) (x5 : (⟨S1024, .f32⟩ : BufTy).Contents (Elt Ideal))
    (x6 : (⟨S2048x1024, .f32⟩ : BufTy).Contents (Elt Ideal)) (x7 : (⟨S1024, .f32⟩ : BufTy).Contents (Elt Ideal))
    (x8 : (⟨S2048x1024, .f32⟩ : BufTy).Contents (Elt Ideal)) (x9 : (⟨S1024, .f32⟩ : BufTy).Contents (Elt Ideal))
    (x10 : (⟨S2048x1024, .f32⟩ : BufTy).Contents (Elt Ideal)) (x11 : (⟨S1024, .f32⟩ : BufTy).Contents (Elt Ideal))
    (r : Fin 8192) (q : Fin 1024) :
    val_main_v9 (F := Ideal) x0 x1 x4 x5 x6 x7 x8 x9 x10 x11 (ix2 r q) = Cert.LstmCell.pre x0 x1 x8 x9 r q := by
  rw [val_main_v9_apply]
  have e : idx_main_v9 (ix2 r q) = ix2 r (⟨2048 + q.val, by have := q.isLt; omega⟩ : Fin 4096) :=
    funext fun a => match a with | ⟨0, _⟩ => rfl | ⟨1, _⟩ => rfl
  rw [e, v6_at]
  simp only [joined_row, weight_col2, bias_col2]
  unfold Cert.LstmCell.pre
  rw [Cert.LstmCell.sum_joined]

/-- Band 3 (columns 3072 to 4096) at `(r, q)` is the pre-activation of the gate with weight `x10` and bias `x11`. -/
theorem band3 (x0 x1 : (⟨S8192x1024, .f32⟩ : BufTy).Contents (Elt Ideal))
    (x4 : (⟨S2048x1024, .f32⟩ : BufTy).Contents (Elt Ideal)) (x5 : (⟨S1024, .f32⟩ : BufTy).Contents (Elt Ideal))
    (x6 : (⟨S2048x1024, .f32⟩ : BufTy).Contents (Elt Ideal)) (x7 : (⟨S1024, .f32⟩ : BufTy).Contents (Elt Ideal))
    (x8 : (⟨S2048x1024, .f32⟩ : BufTy).Contents (Elt Ideal)) (x9 : (⟨S1024, .f32⟩ : BufTy).Contents (Elt Ideal))
    (x10 : (⟨S2048x1024, .f32⟩ : BufTy).Contents (Elt Ideal)) (x11 : (⟨S1024, .f32⟩ : BufTy).Contents (Elt Ideal))
    (r : Fin 8192) (q : Fin 1024) :
    val_main_v10 (F := Ideal) x0 x1 x4 x5 x6 x7 x8 x9 x10 x11 (ix2 r q) = Cert.LstmCell.pre x0 x1 x10 x11 r q := by
  rw [val_main_v10_apply]
  have e : idx_main_v10 (ix2 r q) = ix2 r (⟨3072 + q.val, by have := q.isLt; omega⟩ : Fin 4096) :=
    funext fun a => match a with | ⟨0, _⟩ => rfl | ⟨1, _⟩ => rfl
  rw [e, v6_at]
  simp only [joined_row, weight_col3, bias_col3]
  unfold Cert.LstmCell.pre
  rw [Cert.LstmCell.sum_joined]

/-! ## The elementwise tail -/

/-- The logistic function of band 0, spelled by the program as one over one plus the exponential of the negation. -/
theorem logistic0 (x0 x1 : (⟨S8192x1024, .f32⟩ : BufTy).Contents (Elt Ideal))
    (x4 : (⟨S2048x1024, .f32⟩ : BufTy).Contents (Elt Ideal)) (x5 : (⟨S1024, .f32⟩ : BufTy).Contents (Elt Ideal))
    (x6 : (⟨S2048x1024, .f32⟩ : BufTy).Contents (Elt Ideal)) (x7 : (⟨S1024, .f32⟩ : BufTy).Contents (Elt Ideal))
    (x8 : (⟨S2048x1024, .f32⟩ : BufTy).Contents (Elt Ideal)) (x9 : (⟨S1024, .f32⟩ : BufTy).Contents (Elt Ideal))
    (x10 : (⟨S2048x1024, .f32⟩ : BufTy).Contents (Elt Ideal)) (x11 : (⟨S1024, .f32⟩ : BufTy).Contents (Elt Ideal))
    (r : Fin 8192) (q : Fin 1024) :
    val_main_v16 (F := Ideal) x0 x1 x4 x5 x6 x7 x8 x9 x10 x11 (ix2 r q) = Ideal.logistic (Cert.LstmCell.pre x0 x1 x4 x5 r q) := by
  rw [val_main_v16_apply, val_main_v15_apply, val_main_cst_0_apply, val_main_v14_apply, val_main_v13_apply,
    val_main_cst_apply, val_main_v12_apply, val_main_v11_apply, band0]
  exact Cert.LstmCell.logistic_spelled _

/-- The logistic function of band 1, spelled by the program as one over one plus the exponential of the negation. -/
theorem logistic1 (x0 x1 : (⟨S8192x1024, .f32⟩ : BufTy).Contents (Elt Ideal))
    (x4 : (⟨S2048x1024, .f32⟩ : BufTy).Contents (Elt Ideal)) (x5 : (⟨S1024, .f32⟩ : BufTy).Contents (Elt Ideal))
    (x6 : (⟨S2048x1024, .f32⟩ : BufTy).Contents (Elt Ideal)) (x7 : (⟨S1024, .f32⟩ : BufTy).Contents (Elt Ideal))
    (x8 : (⟨S2048x1024, .f32⟩ : BufTy).Contents (Elt Ideal)) (x9 : (⟨S1024, .f32⟩ : BufTy).Contents (Elt Ideal))
    (x10 : (⟨S2048x1024, .f32⟩ : BufTy).Contents (Elt Ideal)) (x11 : (⟨S1024, .f32⟩ : BufTy).Contents (Elt Ideal))
    (r : Fin 8192) (q : Fin 1024) :
    val_main_v22 (F := Ideal) x0 x1 x4 x5 x6 x7 x8 x9 x10 x11 (ix2 r q) = Ideal.logistic (Cert.LstmCell.pre x0 x1 x6 x7 r q) := by
  rw [val_main_v22_apply, val_main_v21_apply, val_main_cst_2_apply, val_main_v20_apply, val_main_v19_apply,
    val_main_cst_1_apply, val_main_v18_apply, val_main_v17_apply, band1]
  exact Cert.LstmCell.logistic_spelled _

/-- The logistic function of band 3, spelled by the program as one over one plus the exponential of the negation. -/
theorem logistic3 (x0 x1 : (⟨S8192x1024, .f32⟩ : BufTy).Contents (Elt Ideal))
    (x4 : (⟨S2048x1024, .f32⟩ : BufTy).Contents (Elt Ideal)) (x5 : (⟨S1024, .f32⟩ : BufTy).Contents (Elt Ideal))
    (x6 : (⟨S2048x1024, .f32⟩ : BufTy).Contents (Elt Ideal)) (x7 : (⟨S1024, .f32⟩ : BufTy).Contents (Elt Ideal))
    (x8 : (⟨S2048x1024, .f32⟩ : BufTy).Contents (Elt Ideal)) (x9 : (⟨S1024, .f32⟩ : BufTy).Contents (Elt Ideal))
    (x10 : (⟨S2048x1024, .f32⟩ : BufTy).Contents (Elt Ideal)) (x11 : (⟨S1024, .f32⟩ : BufTy).Contents (Elt Ideal))
    (r : Fin 8192) (q : Fin 1024) :
    val_main_v32 (F := Ideal) x0 x1 x4 x5 x6 x7 x8 x9 x10 x11 (ix2 r q) = Ideal.logistic (Cert.LstmCell.pre x0 x1 x10 x11 r q) := by
  rw [val_main_v32_apply, val_main_v31_apply, val_main_cst_4_apply, val_main_v30_apply, val_main_v29_apply,
    val_main_cst_3_apply, val_main_v28_apply, val_main_v27_apply, band3]
  exact Cert.LstmCell.logistic_spelled _

/-- The hyperbolic tangent of band 2. -/
theorem tanh2 (x0 x1 : (⟨S8192x1024, .f32⟩ : BufTy).Contents (Elt Ideal))
    (x4 : (⟨S2048x1024, .f32⟩ : BufTy).Contents (Elt Ideal)) (x5 : (⟨S1024, .f32⟩ : BufTy).Contents (Elt Ideal))
    (x6 : (⟨S2048x1024, .f32⟩ : BufTy).Contents (Elt Ideal)) (x7 : (⟨S1024, .f32⟩ : BufTy).Contents (Elt Ideal))
    (x8 : (⟨S2048x1024, .f32⟩ : BufTy).Contents (Elt Ideal)) (x9 : (⟨S1024, .f32⟩ : BufTy).Contents (Elt Ideal))
    (x10 : (⟨S2048x1024, .f32⟩ : BufTy).Contents (Elt Ideal)) (x11 : (⟨S1024, .f32⟩ : BufTy).Contents (Elt Ideal))
    (r : Fin 8192) (q : Fin 1024) :
    val_main_v23 (F := Ideal) x0 x1 x4 x5 x6 x7 x8 x9 x10 x11 (ix2 r q) = Ideal.tanh (Cert.LstmCell.pre x0 x1 x8 x9 r q) := by
  rw [val_main_v23_apply, band2]
  rfl

/-- The new cell state at `(r, q)`. -/
theorem cell_at (x0 x1 x2 : (⟨S8192x1024, .f32⟩ : BufTy).Contents (Elt Ideal))
    (x4 : (⟨S2048x1024, .f32⟩ : BufTy).Contents (Elt Ideal)) (x5 : (⟨S1024, .f32⟩ : BufTy).Contents (Elt Ideal))
    (x6 : (⟨S2048x1024, .f32⟩ : BufTy).Contents (Elt Ideal)) (x7 : (⟨S1024, .f32⟩ : BufTy).Contents (Elt Ideal))
    (x8 : (⟨S2048x1024, .f32⟩ : BufTy).Contents (Elt Ideal)) (x9 : (⟨S1024, .f32⟩ : BufTy).Contents (Elt Ideal))
    (x10 : (⟨S2048x1024, .f32⟩ : BufTy).Contents (Elt Ideal)) (x11 : (⟨S1024, .f32⟩ : BufTy).Contents (Elt Ideal))
    (r : Fin 8192) (q : Fin 1024) :
    val_main_v26 (F := Ideal) x0 x1 x2 x4 x5 x6 x7 x8 x9 x10 x11 (ix2 r q)
      = Cert.LstmCell.cellAt x0 x1 x2 x4 x5 x6 x7 x8 x9 r q := by
  rw [val_main_v26_apply, val_main_v24_apply, val_main_v25_apply, logistic0, logistic1, tanh2]
  rfl

/-- The reference's new cell state is the specification's. -/
theorem ref_cell (x0 x1 x2 : (⟨S8192x1024, .f32⟩ : BufTy).Contents (Elt Ideal))
    (x4 : (⟨S2048x1024, .f32⟩ : BufTy).Contents (Elt Ideal)) (x5 : (⟨S1024, .f32⟩ : BufTy).Contents (Elt Ideal))
    (x6 : (⟨S2048x1024, .f32⟩ : BufTy).Contents (Elt Ideal)) (x7 : (⟨S1024, .f32⟩ : BufTy).Contents (Elt Ideal))
    (x8 : (⟨S2048x1024, .f32⟩ : BufTy).Contents (Elt Ideal)) (x9 : (⟨S1024, .f32⟩ : BufTy).Contents (Elt Ideal))
    (x10 : (⟨S2048x1024, .f32⟩ : BufTy).Contents (Elt Ideal)) (x11 : (⟨S1024, .f32⟩ : BufTy).Contents (Elt Ideal)) :
    Cert.ReferenceIdeal.Read.val_main_v26 (F := Ideal) x0 x1 x2 x4 x5 x6 x7 x8 x9 x10 x11
      = Cert.LstmCell.cellArr x0 x1 x2 x4 x5 x6 x7 x8 x9 := by
  funext i
  obtain ⟨r, q, rfl⟩ : ∃ (r : Fin 8192) (q : Fin 1024), i = ix2 r q := ⟨i 0, i 1, eq_ix2 i⟩
  exact cell_at x0 x1 x2 x4 x5 x6 x7 x8 x9 x10 x11 r q

/-- The reference's new hidden state is the specification's. -/
theorem ref_hidden (x0 x1 x2 : (⟨S8192x1024, .f32⟩ : BufTy).Contents (Elt Ideal))
    (x4 : (⟨S2048x1024, .f32⟩ : BufTy).Contents (Elt Ideal)) (x5 : (⟨S1024, .f32⟩ : BufTy).Contents (Elt Ideal))
    (x6 : (⟨S2048x1024, .f32⟩ : BufTy).Contents (Elt Ideal)) (x7 : (⟨S1024, .f32⟩ : BufTy).Contents (Elt Ideal))
    (x8 : (⟨S2048x1024, .f32⟩ : BufTy).Contents (Elt Ideal)) (x9 : (⟨S1024, .f32⟩ : BufTy).Contents (Elt Ideal))
    (x10 : (⟨S2048x1024, .f32⟩ : BufTy).Contents (Elt Ideal)) (x11 : (⟨S1024, .f32⟩ : BufTy).Contents (Elt Ideal)) :
    Cert.ReferenceIdeal.Read.val_main_v34 (F := Ideal) x0 x1 x2 x4 x5 x6 x7 x8 x9 x10 x11
      = Cert.LstmCell.hiddenArr x0 x1 x2 x4 x5 x6 x7 x8 x9 x10 x11 := by
  funext i
  obtain ⟨r, q, rfl⟩ : ∃ (r : Fin 8192) (q : Fin 1024), i = ix2 r q := ⟨i 0, i 1, eq_ix2 i⟩
  show _ = Cert.LstmCell.hiddenAt x0 x1 x2 x4 x5 x6 x7 x8 x9 x10 x11 r q
  rw [val_main_v34_apply, val_main_v33_apply, logistic3, cell_at]
  rfl

end Cert.ReferenceIdeal.Cell

end
-- ==== Proof.lean ====
/-
  An LSTM cell update computed by two kernels equals its textbook reference over the extended reals.

  The kernel program first lays the four gates' weights (each 2048 × 1024) side by side in gate-major form — the
  rows that multiply the input `x` in one 1024 × 4096 array, the rows that multiply the previous hidden state `h` in
  another, the four biases in one row — and then, for each block of 256 batch rows, forms the 4096 pre-activations
  `x·WX + h·WH + b` with two matrix products, cuts them into the four gates, and applies
      c' = c · σ(forget) + σ(input) · tanh(update),     h' = σ(out) · tanh c'.
  The reference joins `x` and `h` into one 2048-wide row, joins the weights into one 2048 × 4096 matrix, and contracts
  once.  On the extended reals a change of float format is the identity, the kernel's logistic operation is the
  reference's `1 / (1 + e⁻ᵛ)`, and one sum over 2048 coordinates is the sum of its two halves (addition of extended
  reals is commutative and associative: no finiteness is needed), so both programs compute the same function of the
  arguments, index by index: `Cert.LstmCell.hiddenArr` and `Cert.LstmCell.cellArr`.

  The three frame claims are the generated frame certificates of the two kernel programs and the reference's generated
  run with its results dropped; the idealization rewrote nothing, so `preserves` is trivial.
-/
import proofs.«112480_j55044300866146_2_alg».proof.Defs
import proofs.«112480_j55044300866146_2_alg».proof.Proof.Gen.Kernel
import proofs.«112480_j55044300866146_2_alg».proof.Proof.Gen.Kernel.Skeleton
import proofs.«112480_j55044300866146_2_alg».proof.Proof.Gen.Kernel.Launch
import proofs.«112480_j55044300866146_2_alg».proof.Proof.Gen.Kernel.Points
import proofs.«112480_j55044300866146_2_alg».proof.Proof.Gen.Kernel.Frame
import proofs.«112480_j55044300866146_2_alg».proof.Proof.Gen.KernelIdeal
import proofs.«112480_j55044300866146_2_alg».proof.Proof.Gen.KernelIdeal.Skeleton
import proofs.«112480_j55044300866146_2_alg».proof.Proof.Gen.KernelIdeal.Launch
import proofs.«112480_j55044300866146_2_alg».proof.Proof.Gen.KernelIdeal.Points
import proofs.«112480_j55044300866146_2_alg».proof.Proof.Gen.KernelIdeal.Frame
import proofs.«112480_j55044300866146_2_alg».proof.Proof.Gen.ReferenceIdeal
import proofs.«112480_j55044300866146_2_alg».proof.Proof.Gen.ReferenceIdeal.Run
import proofs.«112480_j55044300866146_2_alg».proof.Proof.Gen.ReferenceIdeal.Read
import proofs.«112480_j55044300866146_2_alg».proof.Proof.Gen.Pre_finite_inputs
import proofs.«112480_j55044300866146_2_alg».proof.Proof.KernelValue
import proofs.«112480_j55044300866146_2_alg».proof.Proof.RefCell
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_ideal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2.2) (Cert.ReferenceIdeal.Value.run (F := Ideal) m ρ)

/-- Both idealized programs, run from memories agreeing on the arguments, end with the new hidden and cell state of
    those arguments in their result arrays. -/
theorem algebraic : Cert.algebraic_KernelIdeal_ReferenceIdeal := by
  intro m ρ m' ρ' _ hagree
  refine ⟨fun c => Cert.LstmCell.hiddenArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.LstmCell.cellArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.KernelIdeal.KernelValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11⟩ := hagree c
    rw [Cert.ReferenceIdeal.Read.val_main_v34_eq, Cert.ReferenceIdeal.Cell.ref_hidden, a0, a1, a2, a4, a5, a6, a7, a8, a9, a10, a11]
  · obtain ⟨a0, a1, a2, a3, a4, a5, a6, a7, a8, a9, a10, a11⟩ := hagree c
    refine (Cert.ReferenceIdeal.Read.val_main_v26_eq _ _ _ _ _ _ _ _ _ _ _).trans ?_
    rw [Cert.ReferenceIdeal.Cell.ref_cell, a0, a1, a2, a4, a5, a6, a7, a8, a9]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
